-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S256x256 : Shape := ⟨2, ![256, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S8192x256 .f32) (main_arg1 : FVec F S8192x256 .f32) (main_arg2 : FVec F S256x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S8192x256 : Shape := ⟨2, ![8192, 256]⟩
abbrev S256x256 : Shape := ⟨2, ![256, 256]⟩
abbrev S1024x256 : Shape := ⟨2, ![1024, 256]⟩
abbrev S8192x1 : Shape := ⟨2, ![8192, 1]⟩
abbrev S512x256 : Shape := ⟨2, ![512, 256]⟩
abbrev S512x1 : Shape := ⟨2, ![512, 1]⟩
abbrev S256x512 : Shape := ⟨2, ![256, 512]⟩
abbrev S512x512 : Shape := ⟨2, ![512, 512]⟩
abbrev S512 : Shape := ⟨1, ![512]⟩
abbrev S1x512 : Shape := ⟨2, ![1, 512]⟩
abbrev S8192x8192 : Shape := ⟨2, ![8192, 8192]⟩

abbrev nBuf : Space → Nat
  | .hbm => 7
  | .vmem => 25
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S256x256, .f32⟩
  | .hbm, ⟨3, _⟩ => ⟨S8192x256, .f32⟩
  | .hbm, ⟨4, _⟩ => ⟨S8192x256, .f32⟩
  | .hbm, ⟨5, _⟩ => ⟨S8192x1, .f32⟩
  | .hbm, ⟨6, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S256x256, .f32⟩
  | .local _ .vmem, ⟨8, _⟩ => ⟨S1024x256, .f32⟩
  | .local _ .vmem, ⟨9, _⟩ => ⟨S1024x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x1, .f32⟩
  | .local _ .vmem, ⟨22, _⟩ => ⟨S512x1, .f32⟩
  | .local _ .vmem, ⟨23, _⟩ => ⟨S512x512, .f32⟩
  | .local _ .vmem, ⟨24, _⟩ => ⟨S512x512, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_scratch0 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![16, 16], ![false, false]⟩

def k2_cond2 (i : grid2.Coords) : BitVec 1 :=
  let arg1 : BitVec 32 := BitVec.ofNat 32 (i 1).val
  let c15_i32 : BitVec 32 := 15#32
  let v41 : BitVec 1 := Scalar.cmpi .eq arg1 c15_i32
  let v42 : BitVec 32 := Scalar.extui v41
  let c0_i32_16 : BitVec 32 := 0#32
  let v43 : BitVec 1 := Scalar.cmpi .ne v42 c0_i32_16
  v43

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![16, 16], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S512x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S512x256_p1_0_S256x512 : S512x256.Transposes [1, 0] S256x512
  reduces_S512x256_S512 : S512x256.Reduces [1] S512
  shapeCasts_S512_S512x1 : S512.ShapeCasts S512x1
  transposes_S512x1_p1_0_S1x512 : S512x1.Transposes [1, 0] S1x512
  broadcasts_S512x1_S512x512 : S512x1.Broadcasts S512x512
  broadcasts_S1x512_S512x512 : S1x512.Broadcasts S512x512
  reduces_S512x512_S512 : S512x512.Reduces [1] S512
  inb_S512x512_S512x512_0_0 : ∀ a, (![0, 0] : Fin 2 → Nat) a + S512x512.size a ≤ S512x512.size a
  h_S512x512 : 0 < S512x512.numel
  dot_S1024x256_S256x256_S1024x256_1_0_0_1_n_n_wf : DotDims.WF S1024x256 S256x256 S1024x256 [1] [0] [0] [1] [] []
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .f32 = 32 ∨ (Rect.block (s := S8192x256) S1024x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S8192x256.size a
  hwx2_0 : ∀ i : grid2.Coords, EltTy.bits .f32 = 32 ∨ (Rect.block (s := S8192x256) S512x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S8192x256.size a
  hwx2_1 : ∀ i : grid2.Coords, EltTy.bits .f32 = 32 ∨ (Rect.block (s := S8192x256) S512x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S8192x1.size a
  hwx2_2 : ∀ i : grid2.Coords, EltTy.bits .f32 = 32 ∨ (Rect.block (s := S8192x1) S512x1.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x256.size a ≤ S8192x256.size a
  hwx3_0 : ∀ i : grid3.Coords, EltTy.bits .f32 = 32 ∨ (Rect.block (s := S8192x256) S512x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x256.size a ≤ S8192x256.size a
  hwx3_1 : ∀ i : grid3.Coords, EltTy.bits .f32 = 32 ∨ (Rect.block (s := S8192x256) S512x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x1.size a ≤ S8192x1.size a
  hwx3_2 : ∀ i : grid3.Coords, EltTy.bits .f32 = 32 ∨ (Rect.block (s := S8192x1) S512x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x512.size a ≤ S8192x8192.size a
  hwx3_3 : ∀ i : grid3.Coords, EltTy.bits .f32 = 32 ∨ (Rect.block (s := S8192x8192) S512x512.size (cc3_transform_3 i) (hinb3_3 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v1) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S512x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S512x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v1) S512x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v0) S512x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v2) S512x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v3) S512x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S8192x256 : Shape := ⟨2, ![8192, 256]⟩
abbrev S256x256 : Shape := ⟨2, ![256, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 42
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S256x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S8192x256, .f32⟩
  | .hbm, ⟨10, _⟩ => ⟨S_, .f32⟩
  | .hbm, ⟨11, _⟩ => ⟨S8192, .f32⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S256x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x8192, .f32⟩
  | .hbm, ⟨41, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  bcast_S_S8192x1 : S_.BroadcastsInDim S8192x1 (![] : Fin 0 → Fin S8192x1.rank)
  dot_S8192x256_S256x256_S8192x256_1_0_0_1_n_n_wf : DotDims.WF S8192x256 S256x256 S8192x256 [1] [0] [0] [1] [] []
  dot_S8192x256_S256x8192_S8192x8192_1_0_0_1_n_n_wf : DotDims.WF S8192x256 S256x8192 S8192x8192 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KFrame0.lean ====
/-
  The frame half of the pipelines whose bodies keep nothing from one grid point to the next, at any float instance.

  For one such pipeline, entered with the core's buffers at contents V: each window's block at a grid point is read off
  its array as found; an input window's staging buffer holds that block at every point, whether or not the pipeline
  fetched it there (an index that has not moved leaves the previous block, which is the same block); the body reads the
  input blocks whole, and its one store covers the output buffer, so what it leaves there is a closed function of the
  input blocks. From these the body's triple, the proof data, and the body obligation at every point.
-/
import proofs.«104530_j2594160247416_1_alg».proof.Proof.Gen.Kernel.Launch
import proofs.«104530_j2594160247416_1_alg».proof.Proof.Gen.Kernel.Skeleton
import proofs.«104530_j2594160247416_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate of the
-- long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the pipeline is entered: what every statement below is made at
variable (V : (c : Dev nD) → (b : Ref sig .tc) → Buf (Elt F) ((c : Thread nD τ).loc b))

/-! # Pipeline 0: one row block of the product of a support matrix with the factor

## The windows' blocks -/

/-- Window `w`'s block at point `t`, read off its array as the pipeline finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (a block of 1024 rows, fetched at every point) holds its block at every point, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the factor, whole: one block, fetched at the first point only) holds its block at every point:
    where it is not fetched its index has not moved, so the block it still holds is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S1024x256 := Rect.unit (s := S1024x256) ![0, 0] S1024x256.size inb_S1024x256_S1024x256_0_0
abbrev r0_1 : Rect S256x256 := Rect.unit (s := S256x256) ![0, 0] S256x256.size inb_S256x256_S256x256_0_0
abbrev r0_2 : Rect S1024x256 := Rect.unit (s := S1024x256) ![0, 0] S1024x256.size inb_S1024x256_S1024x256_0_0

/-! ## What the body leaves in the output window's buffer -/

/-- Window 2's staging buffer after the body, from the input windows' blocks: its one store, whose payload is the
    product of the two blocks read whole. -/
def out0_2 (x0 : Vec F S1024x256 .f32) (x1 : Vec F S256x256 .f32) : Vec F S1024x256 .f32 :=
  View.canon [⟨r0_2, k0_pay1 (View.ld x0 r0_0) (View.ld x1 r0_1)⟩]

/-- The store's rectangle is the whole buffer, so it covers it. -/
theorem cover0_2 (p0 : Vec F S1024x256 .f32) (y : S1024x256.Idx) :
    ∃ pc ∈ ([⟨r0_2, p0⟩] : List (View.Piece (Elt F) S1024x256 .f32)), y ∈ pc.1.set :=
  View.cover_of_tiled [⟨r0_2, p0⟩] S1024x256.size (by rfl) y

/-! ## The body's triple -/

set_option maxHeartbeats 1000000 in
/-- The body on whole staging memrefs, the inputs' at read contents `x0`, `x1` and the output's at anything, runs to
    the continuation holding the inputs' as they were and the output's at `out0_2` of the inputs: two loads, a load of
    the output buffer whose value is not used, and the covering store. -/
theorem sound_kernel0 (c : Dev nD) (E : Set ℕ) (i : grid0.Coords) (arg1 : Memref sig .tc .vmem S1024x256 .f32) (harg1 : arg1.IsWhole) (arg2 : Memref sig .tc .vmem S256x256 .f32) (harg2 : arg2.IsWhole) (arg3 : Memref sig .tc .vmem S1024x256 .f32) (harg3 : arg3.IsWhole)
    (x0 : Vec F S1024x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the pipeline finds them (`V`); after the body at point
    `t` each input's buffer at its block and the output's at `out0_2` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KFrame1.lean ====
/-
  The frame half of the pipelines whose bodies keep nothing from one grid point to the next, at any float instance.

  For one such pipeline, entered with the core's buffers at contents V: each window's block at a grid point is read off
  its array as found; an input window's staging buffer holds that block at every point, whether or not the pipeline
  fetched it there (an index that has not moved leaves the previous block, which is the same block); the body reads the
  input blocks whole, and its one store covers the output buffer, so what it leaves there is a closed function of the
  input blocks. From these the body's triple, the proof data, and the body obligation at every point.
-/
import proofs.«104530_j2594160247416_1_alg».proof.Proof.Gen.Kernel.Launch
import proofs.«104530_j2594160247416_1_alg».proof.Proof.Gen.Kernel.Skeleton
import proofs.«104530_j2594160247416_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate of the
-- long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the pipeline is entered: what every statement below is made at
variable (V : (c : Dev nD) → (b : Ref sig .tc) → Buf (Elt F) ((c : Thread nD τ).loc b))

/-! # Pipeline 1: one row block of the product of a support matrix with the factor

## The windows' blocks -/

/-- Window `w`'s block at point `t`, read off its array as the pipeline finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (a block of 1024 rows, fetched at every point) holds its block at every point, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 (the factor, whole: one block, fetched at the first point only) holds its block at every point:
    where it is not fetched its index has not moved, so the block it still holds is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S1024x256 := Rect.unit (s := S1024x256) ![0, 0] S1024x256.size inb_S1024x256_S1024x256_0_0
abbrev r1_1 : Rect S256x256 := Rect.unit (s := S256x256) ![0, 0] S256x256.size inb_S256x256_S256x256_0_0
abbrev r1_2 : Rect S1024x256 := Rect.unit (s := S1024x256) ![0, 0] S1024x256.size inb_S1024x256_S1024x256_0_0

/-! ## What the body leaves in the output window's buffer -/

/-- Window 2's staging buffer after the body, from the input windows' blocks: its one store, whose payload is the
    product of the two blocks read whole. -/
def out1_2 (x0 : Vec F S1024x256 .f32) (x1 : Vec F S256x256 .f32) : Vec F S1024x256 .f32 :=
  View.canon [⟨r1_2, k1_pay1 (View.ld x0 r1_0) (View.ld x1 r1_1)⟩]

/-- The store's rectangle is the whole buffer, so it covers it. -/
theorem cover1_2 (p0 : Vec F S1024x256 .f32) (y : S1024x256.Idx) :
    ∃ pc ∈ ([⟨r1_2, p0⟩] : List (View.Piece (Elt F) S1024x256 .f32)), y ∈ pc.1.set :=
  View.cover_of_tiled [⟨r1_2, p0⟩] S1024x256.size (by rfl) y

/-! ## The body's triple -/

set_option maxHeartbeats 1000000 in
/-- The body on whole staging memrefs, the inputs' at read contents `x0`, `x1` and the output's at anything, runs to
    the continuation holding the inputs' as they were and the output's at `out1_2` of the inputs: two loads, a load of
    the output buffer whose value is not used, and the covering store. -/
theorem sound_kernel1 (c : Dev nD) (E : Set ℕ) (i : grid1.Coords) (arg1 : Memref sig .tc .vmem S1024x256 .f32) (harg1 : arg1.IsWhole) (arg2 : Memref sig .tc .vmem S256x256 .f32) (harg2 : arg2.IsWhole) (arg3 : Memref sig .tc .vmem S1024x256 .f32) (harg3 : arg3.IsWhole)
    (x0 : Vec F S1024x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the pipeline finds them (`V`); after the body at point
    `t` each input's buffer at its block and the output's at `out1_2` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KFrame3.lean ====
/-
  The frame half of the pipelines whose bodies keep nothing from one grid point to the next, at any float instance.

  For one such pipeline, entered with the core's buffers at contents V: each window's block at a grid point is read off
  its array as found; an input window's staging buffer holds that block at every point, whether or not the pipeline
  fetched it there (an index that has not moved leaves the previous block, which is the same block); the body reads the
  input blocks whole, and its one store covers the output buffer, so what it leaves there is a closed function of the
  input blocks. From these the body's triple, the proof data, and the body obligation at every point.
-/
import proofs.«104530_j2594160247416_1_alg».proof.Proof.Gen.Kernel.Launch
import proofs.«104530_j2594160247416_1_alg».proof.Proof.Gen.Kernel.Skeleton
import proofs.«104530_j2594160247416_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate of the
-- long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the pipeline is entered: what every statement below is made at
variable (V : (c : Dev nD) → (b : Ref sig .tc) → Buf (Elt F) ((c : Thread nD τ).loc b))

/-! # Pipeline 3: one 512 × 512 block of the normalised kernel matrix

## The windows' blocks -/

/-- Window `w`'s block at point `t`, read off its array as the pipeline finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (a block of 512 rows of the first product, indexed by the grid row: fetched where the row changes) holds its block at every point, for any
    proof data whose array is `V`'s and whose body leaves the block in place: where it is not fetched its index has not
    moved, so the block it still holds is this point's. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 (a block of 512 rows of the second product, indexed by the grid column: fetched at every point) holds its block at every point, for any
    proof data whose array is `V`'s and whose body leaves the block in place: where it is not fetched its index has not
    moved, so the block it still holds is this point's. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2 (the 512 row sums of the grid row: fetched where the row changes) holds its block at every point, for any
    proof data whose array is `V`'s and whose body leaves the block in place: where it is not fetched its index has not
    moved, so the block it still holds is this point's. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S512x256 := Rect.unit (s := S512x256) ![0, 0] S512x256.size inb_S512x256_S512x256_0_0
abbrev r3_1 : Rect S512x256 := Rect.unit (s := S512x256) ![0, 0] S512x256.size inb_S512x256_S512x256_0_0
abbrev r3_2 : Rect S512x1 := Rect.unit (s := S512x1) ![0, 0] S512x1.size inb_S512x1_S512x1_0_0
abbrev r3_3 : Rect S512x512 := Rect.unit (s := S512x512) ![0, 0] S512x512.size inb_S512x512_S512x512_0_0

/-! ## What the body leaves in the output window's buffer -/

/-- Window 3's staging buffer after the body, from the input windows' blocks: its one store, whose payload is the
    kernel block of the two row blocks divided by the row sums plus the small constant. -/
def out3_3 (x0 : Vec F S512x256 .f32) (x1 : Vec F S512x256 .f32) (x2 : Vec F S512x1 .f32) : Vec F S512x512 .f32 :=
  View.canon [⟨r3_3, k3_pay1 (View.ld x0 r3_0) (View.ld x1 r3_1) (View.ld x2 r3_2)⟩]

/-- The store's rectangle is the whole buffer, so it covers it. -/
theorem cover3_3 (p0 : Vec F S512x512 .f32) (y : S512x512.Idx) :
    ∃ pc ∈ ([⟨r3_3, p0⟩] : List (View.Piece (Elt F) S512x512 .f32)), y ∈ pc.1.set :=
  View.cover_of_tiled [⟨r3_3, p0⟩] S512x512.size (by rfl) y

/-! ## The body's triple -/

set_option maxHeartbeats 1000000 in
/-- The body on whole staging memrefs, the inputs' at read contents `x0`, `x1`, `x2` and the output's at anything,
    runs to the continuation holding the inputs' as they were and the output's at `out3_3` of the inputs: three loads,
    a load of the output buffer whose value is not used, and the covering store. -/
theorem sound_kernel3 (c : Dev nD) (E : Set ℕ) (i : grid3.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x512 .f32) (harg5 : arg5.IsWhole)
    (x0 : Vec F S512x256 .f32) (x1 : Vec F S512x256 .f32) (x2 : Vec F S512x1 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out3_3 x0 x1 x2)) -∗ K ⟨⟩))
      ⊢ wp frame (wpE (defs₀ (F := F)) Variants.none c none) E (cc3__final_kernel i arg2 harg2 arg3 harg3 arg4 harg4 arg5 harg5) K := by
  simp only [cc3__final_kernel_eq_skeleton]; unfold cc3__final_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the pipeline finds them (`V`); after the body at point
    `t` each input's buffer at its block and the output's at `out3_3` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KFrame2S.lean ====
/-
  The row-sum kernel (the third pallas_call): what its runs share. The grid is 16 x 16, row-major, so point t has
  block row t / 16 and block column t % 16. The body has two conditionals on the column coordinate: at column 0 it
  clears the accumulator it keeps in a scoped buffer between points, and at column 15 it copies the accumulator to the
  output block, which is written back only there. So a point is in one of three cases: first column (A), a middle
  column (B), last column (C); no point is both first and last.
-/
import proofs.«104530_j2594160247416_1_alg».proof.Proof.Gen.Kernel.Launch
import proofs.«104530_j2594160247416_1_alg».proof.Proof.Gen.Kernel.Skeleton
import proofs.«104530_j2594160247416_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where it is not
    fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, in closed form over the grid -/

/-- "The column coordinate is 0", as the body computes it. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 16 = 0 :=
  (by decide +kernel : ∀ t : Fin grid2.N, cond2_0 (grid2.coords t) ↔ t.val % 16 = 0)

/-- "The column coordinate is 15", as the body computes it. -/
abbrev cond2_1 (i : grid2.Coords) : Prop := k2_cond2 i = 1#1
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- Away from the last column the output block is not stored into and not written back. -/
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel
/-- At the last column it is stored into. -/
theorem liveAt2_2_C : ∀ t : Fin cfg2.N, ¬cond2_0 (grid2.coords t) → cond2_1 (grid2.coords t) → cfg2.idle 2 (grid2.coords t) = false := by decide +kernel

/-! ## The memrefs the body is called with -/

/-- One staging buffer of the output window, through which its contents are stated. -/
abbrev VO2_2 : View sig .tc .vmem S512x1 .f32 := (Memref.whole cc2_stg2_0 : Memref sig .tc .vmem S512x1 .f32).view
abbrev ms2_0 (t : Fin cfg2.N) : Memref sig .tc .vmem S512x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2_0 : Memref sig .tc .vmem S512x1 .f32 := Memref.whole cc2_scratch0
abbrev VS2_0 : View sig .tc .vmem S512x1 .f32 := scM2_0.view

/-- Every scoped buffer of the core that is neither a staging buffer of this call nor its accumulator (the other
    calls' staging buffers), at some contents each: carried through the region unopened. -/
abbrev rest2 (c : Dev nD) : sProp 𝕄 :=
  Pipeline.scopedRestBut (Ix := Unit) (Name := ℕ) (U := UR sig nD τ) (Lvl := ℕ) (Val := Elt F) spec2 c [cc2_scratch0]

/-- The scoped rest of this call split at its accumulator. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ rest2 c) :=
  Pipeline.scopedRest_split_of_list spec2 c [cc2_scratch0] (by decide) (by decide)

/-- The class invariant with the accumulator as a memref owned at some contents. -/
theorem PhiA2_eq (c : Dev nD) :
    (Pipeline.ΦA spec2 c : sProp 𝕄)
      = iprop(iprop((∃ d, owns (c : Thread nD τ) scM2_0 fullShare d) ∗ rest2 c) ∗ (∃ r, prngReg c r)) := by
  unfold Pipeline.ΦA; rw [scopedRest2_split]; simp only [scM2_0, owns_whole]; try rfl

end Cert.Kernel.Fr

end
-- ==== Proof.KFrame2A.lean ====
/-
  The row-sum kernel's body at a point of the first column: the accumulator is cleared, then the block's partial row
  sums are added into it; the output block is not touched.
-/
import proofs.«104530_j2594160247416_1_alg».proof.Proof.KFrame2S

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body's run in case A (first column): on whole staging memrefs - the two input blocks at their contents, the output
    block handed back as found where the case does not store into it, the accumulator at what the point before left (or
    at anything where the case clears it first) - the body runs to the continuation holding the inputs as they were
    and each buffer it stored into with its stores written, as a list of pieces (last first) that the run finds. -/
noncomputable def kernelRun2_A (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (hc0 : cond2_0 i) (hc1 : ¬cond2_1 i)
    (x0 : Vec F S512x256 .f32) (x1 : Vec F S512x256 .f32) :
    Σ' (L2 : List (View.Piece (Elt F) S512x1 .f32)), { LS0 : List (View.Piece (Elt F) S512x1 .f32) //
      ∀ (xi2 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__rowsum_kernel i arg2 harg2 arg3 harg3 arg4 harg4 arg5 harg5) K } := by
  refine ⟨[], ?_, fun xi2 E K => ?run⟩
  case run =>
    simp only [cc2__rowsum_kernel_eq_skeleton]; unfold cc2__rowsum_kernel_skel
    simp only [k2_part1_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.KFrame2B.lean ====
/-
  The row-sum kernel's body at a point of a middle column: the block's partial row sums are added into the accumulator
  the point before left; the output block is not touched.
-/
import proofs.«104530_j2594160247416_1_alg».proof.Proof.KFrame2A

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body's run in case B (a middle column): on whole staging memrefs - the two input blocks at their contents, the output
    block handed back as found where the case does not store into it, the accumulator at what the point before left (or
    at anything where the case clears it first) - the body runs to the continuation holding the inputs as they were
    and each buffer it stored into with its stores written, as a list of pieces (last first) that the run finds. -/
noncomputable def kernelRun2_B (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (hc0 : ¬cond2_0 i) (hc1 : ¬cond2_1 i)
    (x0 : Vec F S512x256 .f32) (x1 : Vec F S512x256 .f32) (xs0 : Vec F S512x1 .f32) :
    Σ' (L2 : List (View.Piece (Elt F) S512x1 .f32)), { LS0 : List (View.Piece (Elt F) S512x1 .f32) //
      ∀ (xi2 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__rowsum_kernel i arg2 harg2 arg3 harg3 arg4 harg4 arg5 harg5) K } := by
  refine ⟨[], ?_, fun xi2 E K => ?run⟩
  case run =>
    simp only [cc2__rowsum_kernel_eq_skeleton]; unfold cc2__rowsum_kernel_skel
    simp only [k2_part1_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.KFrame2C.lean ====
/-
  The row-sum kernel's body at a point of the last column: the block's partial row sums are added into the accumulator
  the point before left, and the accumulator is copied to the output block.
-/
import proofs.«104530_j2594160247416_1_alg».proof.Proof.KFrame2B

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body's run in case C (last column): on whole staging memrefs - the two input blocks at their contents, the output
    block handed back as found where the case does not store into it, the accumulator at what the point before left (or
    at anything where the case clears it first) - the body runs to the continuation holding the inputs as they were
    and each buffer it stored into with its stores written, as a list of pieces (last first) that the run finds. -/
noncomputable def kernelRun2_C (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (hc0 : ¬cond2_0 i) (hc1 : cond2_1 i)
    (x0 : Vec F S512x256 .f32) (x1 : Vec F S512x256 .f32) (xs0 : Vec F S512x1 .f32) :
    Σ' (L2 : List (View.Piece (Elt F) S512x1 .f32)), { LS0 : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__rowsum_kernel i arg2 harg2 arg3 harg3 arg4 harg4 arg5 harg5) K } := by
  refine ⟨?_, ?_, fun E K => ?run⟩
  case run =>
    simp only [cc2__rowsum_kernel_eq_skeleton]; unfold cc2__rowsum_kernel_skel
    simp only [k2_part1_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.KFrame2.lean ====
/-
  The row-sum kernel as a region of the program: what the output block and the accumulator hold after each grid point,
  the region's proof data, and its body obligation at every point.

  After the point at position n the accumulator holds: the block's partial row sums added to a cleared accumulator when n
  is in the first column, and added to what position n - 1 left otherwise. The output block's staging buffer holds the
  accumulator's copy after a point of the last column; elsewhere it is handed back untouched and is not written back.
  Between points the invariant keeps the accumulator at the contents the point before left, beside the other calls'
  scoped buffers (unopened) and the generator register.
-/
import proofs.«104530_j2594160247416_1_alg».proof.Proof.KFrame2C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the output block: a placeholder nothing consults. -/
def out2_A_2 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (hc0 : cond2_0 i) (hc1 : ¬cond2_1 i)
    (x0 x1 : Vec F S512x256 .f32) : Vec F S512x1 .f32 :=
  VO2_2.read (Elt F) (VO2_2.writes (Elt F) VO2_2.junk (kernelRun2_A c i arg2 harg2 arg3 harg3 arg4 harg4 arg5 harg5 hc0 hc1 x0 x1).1)

/-- Case A's stores into the accumulator cover it. -/
theorem scover2_A_0 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (hc0 : cond2_0 i) (hc1 : ¬cond2_1 i)
    (x0 x1 : Vec F S512x256 .f32) (y : S512x1.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S512x1.size (by sl_kernel_rfl) y

/-- What case A leaves in the accumulator. -/
def sout2_A_0 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (hc0 : cond2_0 i) (hc1 : ¬cond2_1 i)
    (x0 x1 : Vec F S512x256 .f32) : Vec F S512x1 .f32 :=
  VS2_0.read (Elt F) (VS2_0.writes (Elt F) VS2_0.junk (kernelRun2_A c i arg2 harg2 arg3 harg3 arg4 harg4 arg5 harg5 hc0 hc1 x0 x1).2.1)

/-- Case B stores nothing into the output block: a placeholder nothing consults. -/
def out2_B_2 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (hc0 : ¬cond2_0 i) (hc1 : ¬cond2_1 i)
    (x0 x1 : Vec F S512x256 .f32) (xs0 : Vec F S512x1 .f32) : Vec F S512x1 .f32 :=
  VO2_2.read (Elt F) (VO2_2.writes (Elt F) VO2_2.junk (kernelRun2_B c i arg2 harg2 arg3 harg3 arg4 harg4 arg5 harg5 hc0 hc1 x0 x1 xs0).1)

theorem scover2_B_0 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (hc0 : ¬cond2_0 i) (hc1 : ¬cond2_1 i)
    (x0 x1 : Vec F S512x256 .f32) (xs0 : Vec F S512x1 .f32) (y : S512x1.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S512x1.size (by sl_kernel_rfl) y

/-- What case B leaves in the accumulator. -/
def sout2_B_0 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (hc0 : ¬cond2_0 i) (hc1 : ¬cond2_1 i)
    (x0 x1 : Vec F S512x256 .f32) (xs0 : Vec F S512x1 .f32) : Vec F S512x1 .f32 :=
  VS2_0.read (Elt F) (VS2_0.writes (Elt F) VS2_0.junk (kernelRun2_B c i arg2 harg2 arg3 harg3 arg4 harg4 arg5 harg5 hc0 hc1 x0 x1 xs0).2.1)

/-- Case C's one store into the output block covers it. -/
theorem cover2_C_2 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (hc0 : ¬cond2_0 i) (hc1 : cond2_1 i)
    (x0 x1 : Vec F S512x256 .f32) (xs0 : Vec F S512x1 .f32) (y : S512x1.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S512x1.size (by sl_kernel_rfl) y

/-- What case C leaves in the output block's staging buffer. -/
def out2_C_2 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (hc0 : ¬cond2_0 i) (hc1 : cond2_1 i)
    (x0 x1 : Vec F S512x256 .f32) (xs0 : Vec F S512x1 .f32) : Vec F S512x1 .f32 :=
  VO2_2.read (Elt F) (VO2_2.writes (Elt F) VO2_2.junk (kernelRun2_C c i arg2 harg2 arg3 harg3 arg4 harg4 arg5 harg5 hc0 hc1 x0 x1 xs0).1)

theorem scover2_C_0 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (hc0 : ¬cond2_0 i) (hc1 : cond2_1 i)
    (x0 x1 : Vec F S512x256 .f32) (xs0 : Vec F S512x1 .f32) (y : S512x1.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S512x1.size (by sl_kernel_rfl) y

/-- What case C leaves in the accumulator. -/
def sout2_C_0 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (hc0 : ¬cond2_0 i) (hc1 : cond2_1 i)
    (x0 x1 : Vec F S512x256 .f32) (xs0 : Vec F S512x1 .f32) : Vec F S512x1 .f32 :=
  VS2_0.read (Elt F) (VS2_0.writes (Elt F) VS2_0.junk (kernelRun2_C c i arg2 harg2 arg3 harg3 arg4 harg4 arg5 harg5 hc0 hc1 x0 x1 xs0).2.1)

/-! ## What the output block and the accumulator hold after each point -/

/-- After the body at position n: (the output block's staging buffer, the accumulator). The case is read off n's
    column; a case that does not clear the accumulator runs on what position n - 1 left in it. -/
def outsAt2 (c : Dev nD) : (n : ℕ) → n < cfg2.N → Vec F S512x1 .f32 × Vec F S512x1 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 16 = 0 then
      if h1 : (n + 1) % 16 = 15 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 16 = 15 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 16 = 0) (h1 : ¬t.val % 16 = 15) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

theorem outsAt2_B (c : Dev nD) (t : Fin cfg2.N) (h0 : ¬t.val % 16 = 0) (h1 : ¬t.val % 16 = 15) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 16 = 0) (h1 : t.val % 16 = 15) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position n: at the start the class invariant (every scoped buffer at anything); afterwards the accumulator
    at what the point before left, the other scoped buffers unopened, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ rest2 (F := F) c) ∗ (∃ r, prngReg c r)) := by
  cases n with
  | zero => exact absurd rfl hz
  | succ n => rfl

/-! ## The proof data -/

/-- The region's proof data on core c: the arrays as the region finds them; after the body at point t each input's
    buffer at its block and the output's at `outsAt2`; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks; the column says which case the point is in; the
    invariant hands the body the accumulator at what the point before left (at anything at the very first point) and
    takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 256 := lt_of_lt_of_eq t.isLt (show cfg2.N = 256 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 16 = 0
  · by_cases h1 : t.val % 16 = 15
    · exfalso; omega
    · rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, Hrest⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _)
            iexact Hrest
          iexact Hg
        isplitl [Ho]; · iexact Ho
        isplitl [H0]; · iexact H0
        isplitl [H1]; · iexact H1
        iexists _; iexact H2
      · rw [PhiS2_castSucc V c t, PhiS2_pos V c _ _ hz]
        iintro ⟨⟨⟨HS0, Hrest⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _)
            iexact Hrest
          iexact Hg
        isplitl [Ho]; · iexact Ho
        isplitl [H0]; · iexact H0
        isplitl [H1]; · iexact H1
        iexists _; iexact H2
  · have hz : t.val ≠ 0 := fun h => h0 (by rw [h])
    by_cases h1 : t.val % 16 = 15
    · rw [show (dat2 V c).leavesExact 2 t = owns (c : Thread nD τ) (ms2_2 t) fullShare ((dat2 V c).after 2 t) from by
        unfold Dat.leavesExact; rw [liveAt2_2_C t (fun h => h0 ((hcond2_0 t).mp h)) ((hcond2_1 t).mpr h1)], after2_2]
      rw [outsAt2_C V c t h0 h1]
      unfold out2_C_2 sout2_C_0; (try dsimp only)
      rw [PhiS2_castSucc V c t, PhiS2_pos V c _ _ hz]
      iintro ⟨⟨⟨HS0, Hrest⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ hz]
      iintro ⟨⟨⟨HS0, Hrest⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_B_0 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class invariant back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

theorem hout2 (c : Dev nD) : (dat2 V c).Φ (Fin.last cfg2.N) ⊢ Pipeline.ΦA spec2 c :=
  Phi_out2 V c _ (by rw [Fin.val_last]; have : cfg2.N = 256 := N_2; omega)

end Cert.Kernel.Fr

end
-- ==== Proof.KRun.lean ====
/-
  The whole program as four kernel regions in a row. Between two regions every unscoped buffer of the core is held at
  a named valuation: the launch memory, then after each region its arrays at what the pipeline's write-backs leave and
  every other buffer as before. The regions chain, the launch makes the first thread state, and the last thread state
  read against the final memory gives every unscoped buffer's final contents, the three arguments among them (no
  region writes an argument: each reads it through an input window or bypasses it).
-/
import proofs.«104530_j2594160247416_1_alg».proof.Proof.KFrame0
import proofs.«104530_j2594160247416_1_alg».proof.Proof.KFrame1
import proofs.«104530_j2594160247416_1_alg».proof.Proof.KFrame3
import proofs.«104530_j2594160247416_1_alg».proof.Proof.KFrame2

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit: its arrays at what the pipeline leaves (the inputs as entered, the output's write-backs
    folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (the inputs as entered, the output's write-backs
    folded), every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- At region 2's exit: its arrays at what the pipeline leaves (the inputs as entered, the output's write-backs
    folded), every other buffer as entered. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references. -/
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-- At region 3's exit: its arrays at what the pipeline leaves (the inputs as entered, the output's write-backs
    folded), every other buffer as entered. -/
def W4 (c : Dev nD) : Valuation τ sig (Elt F) :=
  Pipeline.withArrays spec3 c (W3 m ρ c) fun w => (dat3 (V3 m ρ) c).arrAt w cfg3.N
theorem W4_arr (c : Dev nD) (w : Fin cfg3.W) :
    W4 m ρ c (Proc.devRef .tc (Pipeline.arrRef spec3 w)) = (dat3 (V3 m ρ) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
/-- The same read at the TensorCore's references. -/
abbrev V4 : (c : Dev nD) → (b : Ref sig .tc) → Buf (Elt F) ((c : Thread nD τ).loc b) := fun c b => W4 m ρ c b
theorem hF3 (c : Dev nD) (w : Fin cfg3.W) : (dat3 (V3 m ρ) c).arrAt w cfg3.N = V4 m ρ c (Pipeline.arrRef spec3 w) :=
  (W4_arr m ρ c w).symm
theorem hrest3 (c : Dev nD) : ∀ b, b ∉ Finset.univ.image (Pipeline.arrRef spec3) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := (W2_arr m ρ c 1).trans (((dat1 (V1 m ρ) c).arrAt_in 1 rfl _).trans (A_eq1 (V1 m ρ) c 1))
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V3 m ρ) c
abbrev 𝒱₀ : Variants := Variants.none
abbrev L : GSem nD τ sig → Finset Unit := fun _ => ∅
abbrev lv : GSem nD τ sig → Unit → ℕ := fun _ _ => 0
/-- What rides beside the buffers through every region: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owing clause. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W0`, left at `W1`. Its arrays are split
    out of the unscoped buffers and put back at the exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W1`, left at `W2`. Its arrays are split
    out of the unscoped buffers and put back at the exit contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W2`, left at `W3`. Its arrays are split
    out of the unscoped buffers and put back at the exit contents; the generator register goes into the region's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec2 c : sProp 𝕄)).trans (hin2 (V2 m ρ) c); unfold Pipeline.ΦA
    iintro ⟨Hp, -, Hr⟩
    isplitl [Hr]; · iexact Hr
    iexact Hp
  hout c := by
    rw [Pipeline.ownSems0_none]
    refine (hout2 (V2 m ρ) c).trans (?_ : (Pipeline.ΦA spec2 c : sProp 𝕄) ⊢ _); unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W3`, left at `W4`. Its arrays are split
    out of the unscoped buffers and put back at the exit contents; the generator register goes into the region's
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V3 m ρ c) (V4 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the launch -/

abbrev segs : List (Pipeline.Seg (pcfgs (F := F)) adm (pdats m ρ) () defs₀ 𝒱₀ L lv) :=
  [ .region (reg0 m ρ), .region (reg1 m ρ), .region (reg2 m ρ), .region (reg3 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    the final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame claim at any float instance: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun s h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.Kernel.Fr

end
-- ==== Proof.KIFrame0.lean ====
/-
  The frame half of the pipelines whose bodies keep nothing from one grid point to the next, at any float instance.

  For one such pipeline, entered with the core's buffers at contents V: each window's block at a grid point is read off
  its array as found; an input window's staging buffer holds that block at every point, whether or not the pipeline
  fetched it there (an index that has not moved leaves the previous block, which is the same block); the body reads the
  input blocks whole, and its one store covers the output buffer, so what it leaves there is a closed function of the
  input blocks. From these the body's triple, the proof data, and the body obligation at every point.
-/
import proofs.«104530_j2594160247416_1_alg».proof.Proof.Gen.KernelIdeal.Launch
import proofs.«104530_j2594160247416_1_alg».proof.Proof.Gen.KernelIdeal.Skeleton
import proofs.«104530_j2594160247416_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate of the
-- long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the pipeline is entered: what every statement below is made at
variable (V : (c : Dev nD) → (b : Ref sig .tc) → Buf (Elt F) ((c : Thread nD τ).loc b))

/-! # Pipeline 0: one row block of the product of a support matrix with the factor

## The windows' blocks -/

/-- Window `w`'s block at point `t`, read off its array as the pipeline finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (a block of 1024 rows, fetched at every point) holds its block at every point, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the factor, whole: one block, fetched at the first point only) holds its block at every point:
    where it is not fetched its index has not moved, so the block it still holds is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S1024x256 := Rect.unit (s := S1024x256) ![0, 0] S1024x256.size inb_S1024x256_S1024x256_0_0
abbrev r0_1 : Rect S256x256 := Rect.unit (s := S256x256) ![0, 0] S256x256.size inb_S256x256_S256x256_0_0
abbrev r0_2 : Rect S1024x256 := Rect.unit (s := S1024x256) ![0, 0] S1024x256.size inb_S1024x256_S1024x256_0_0

/-! ## What the body leaves in the output window's buffer -/

/-- Window 2's staging buffer after the body, from the input windows' blocks: its one store, whose payload is the
    product of the two blocks read whole. -/
def out0_2 (x0 : Vec F S1024x256 .f32) (x1 : Vec F S256x256 .f32) : Vec F S1024x256 .f32 :=
  View.canon [⟨r0_2, k0_pay1 (View.ld x0 r0_0) (View.ld x1 r0_1)⟩]

/-- The store's rectangle is the whole buffer, so it covers it. -/
theorem cover0_2 (p0 : Vec F S1024x256 .f32) (y : S1024x256.Idx) :
    ∃ pc ∈ ([⟨r0_2, p0⟩] : List (View.Piece (Elt F) S1024x256 .f32)), y ∈ pc.1.set :=
  View.cover_of_tiled [⟨r0_2, p0⟩] S1024x256.size (by rfl) y

/-! ## The body's triple -/

set_option maxHeartbeats 1000000 in
/-- The body on whole staging memrefs, the inputs' at read contents `x0`, `x1` and the output's at anything, runs to
    the continuation holding the inputs' as they were and the output's at `out0_2` of the inputs: two loads, a load of
    the output buffer whose value is not used, and the covering store. -/
theorem sound_kernel0 (c : Dev nD) (E : Set ℕ) (i : grid0.Coords) (arg1 : Memref sig .tc .vmem S1024x256 .f32) (harg1 : arg1.IsWhole) (arg2 : Memref sig .tc .vmem S256x256 .f32) (harg2 : arg2.IsWhole) (arg3 : Memref sig .tc .vmem S1024x256 .f32) (harg3 : arg3.IsWhole)
    (x0 : Vec F S1024x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the pipeline finds them (`V`); after the body at point
    `t` each input's buffer at its block and the output's at `out0_2` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KIFrame1.lean ====
/-
  The frame half of the pipelines whose bodies keep nothing from one grid point to the next, at any float instance.

  For one such pipeline, entered with the core's buffers at contents V: each window's block at a grid point is read off
  its array as found; an input window's staging buffer holds that block at every point, whether or not the pipeline
  fetched it there (an index that has not moved leaves the previous block, which is the same block); the body reads the
  input blocks whole, and its one store covers the output buffer, so what it leaves there is a closed function of the
  input blocks. From these the body's triple, the proof data, and the body obligation at every point.
-/
import proofs.«104530_j2594160247416_1_alg».proof.Proof.Gen.KernelIdeal.Launch
import proofs.«104530_j2594160247416_1_alg».proof.Proof.Gen.KernelIdeal.Skeleton
import proofs.«104530_j2594160247416_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate of the
-- long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the pipeline is entered: what every statement below is made at
variable (V : (c : Dev nD) → (b : Ref sig .tc) → Buf (Elt F) ((c : Thread nD τ).loc b))

/-! # Pipeline 1: one row block of the product of a support matrix with the factor

## The windows' blocks -/

/-- Window `w`'s block at point `t`, read off its array as the pipeline finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (a block of 1024 rows, fetched at every point) holds its block at every point, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 (the factor, whole: one block, fetched at the first point only) holds its block at every point:
    where it is not fetched its index has not moved, so the block it still holds is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S1024x256 := Rect.unit (s := S1024x256) ![0, 0] S1024x256.size inb_S1024x256_S1024x256_0_0
abbrev r1_1 : Rect S256x256 := Rect.unit (s := S256x256) ![0, 0] S256x256.size inb_S256x256_S256x256_0_0
abbrev r1_2 : Rect S1024x256 := Rect.unit (s := S1024x256) ![0, 0] S1024x256.size inb_S1024x256_S1024x256_0_0

/-! ## What the body leaves in the output window's buffer -/

/-- Window 2's staging buffer after the body, from the input windows' blocks: its one store, whose payload is the
    product of the two blocks read whole. -/
def out1_2 (x0 : Vec F S1024x256 .f32) (x1 : Vec F S256x256 .f32) : Vec F S1024x256 .f32 :=
  View.canon [⟨r1_2, k1_pay1 (View.ld x0 r1_0) (View.ld x1 r1_1)⟩]

/-- The store's rectangle is the whole buffer, so it covers it. -/
theorem cover1_2 (p0 : Vec F S1024x256 .f32) (y : S1024x256.Idx) :
    ∃ pc ∈ ([⟨r1_2, p0⟩] : List (View.Piece (Elt F) S1024x256 .f32)), y ∈ pc.1.set :=
  View.cover_of_tiled [⟨r1_2, p0⟩] S1024x256.size (by rfl) y

/-! ## The body's triple -/

set_option maxHeartbeats 1000000 in
/-- The body on whole staging memrefs, the inputs' at read contents `x0`, `x1` and the output's at anything, runs to
    the continuation holding the inputs' as they were and the output's at `out1_2` of the inputs: two loads, a load of
    the output buffer whose value is not used, and the covering store. -/
theorem sound_kernel1 (c : Dev nD) (E : Set ℕ) (i : grid1.Coords) (arg1 : Memref sig .tc .vmem S1024x256 .f32) (harg1 : arg1.IsWhole) (arg2 : Memref sig .tc .vmem S256x256 .f32) (harg2 : arg2.IsWhole) (arg3 : Memref sig .tc .vmem S1024x256 .f32) (harg3 : arg3.IsWhole)
    (x0 : Vec F S1024x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the pipeline finds them (`V`); after the body at point
    `t` each input's buffer at its block and the output's at `out1_2` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KIFrame3.lean ====
/-
  The frame half of the pipelines whose bodies keep nothing from one grid point to the next, at any float instance.

  For one such pipeline, entered with the core's buffers at contents V: each window's block at a grid point is read off
  its array as found; an input window's staging buffer holds that block at every point, whether or not the pipeline
  fetched it there (an index that has not moved leaves the previous block, which is the same block); the body reads the
  input blocks whole, and its one store covers the output buffer, so what it leaves there is a closed function of the
  input blocks. From these the body's triple, the proof data, and the body obligation at every point.
-/
import proofs.«104530_j2594160247416_1_alg».proof.Proof.Gen.KernelIdeal.Launch
import proofs.«104530_j2594160247416_1_alg».proof.Proof.Gen.KernelIdeal.Skeleton
import proofs.«104530_j2594160247416_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate of the
-- long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the pipeline is entered: what every statement below is made at
variable (V : (c : Dev nD) → (b : Ref sig .tc) → Buf (Elt F) ((c : Thread nD τ).loc b))

/-! # Pipeline 3: one 512 × 512 block of the normalised kernel matrix

## The windows' blocks -/

/-- Window `w`'s block at point `t`, read off its array as the pipeline finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (a block of 512 rows of the first product, indexed by the grid row: fetched where the row changes) holds its block at every point, for any
    proof data whose array is `V`'s and whose body leaves the block in place: where it is not fetched its index has not
    moved, so the block it still holds is this point's. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 (a block of 512 rows of the second product, indexed by the grid column: fetched at every point) holds its block at every point, for any
    proof data whose array is `V`'s and whose body leaves the block in place: where it is not fetched its index has not
    moved, so the block it still holds is this point's. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2 (the 512 row sums of the grid row: fetched where the row changes) holds its block at every point, for any
    proof data whose array is `V`'s and whose body leaves the block in place: where it is not fetched its index has not
    moved, so the block it still holds is this point's. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S512x256 := Rect.unit (s := S512x256) ![0, 0] S512x256.size inb_S512x256_S512x256_0_0
abbrev r3_1 : Rect S512x256 := Rect.unit (s := S512x256) ![0, 0] S512x256.size inb_S512x256_S512x256_0_0
abbrev r3_2 : Rect S512x1 := Rect.unit (s := S512x1) ![0, 0] S512x1.size inb_S512x1_S512x1_0_0
abbrev r3_3 : Rect S512x512 := Rect.unit (s := S512x512) ![0, 0] S512x512.size inb_S512x512_S512x512_0_0

/-! ## What the body leaves in the output window's buffer -/

/-- Window 3's staging buffer after the body, from the input windows' blocks: its one store, whose payload is the
    kernel block of the two row blocks divided by the row sums plus the small constant. -/
def out3_3 (x0 : Vec F S512x256 .f32) (x1 : Vec F S512x256 .f32) (x2 : Vec F S512x1 .f32) : Vec F S512x512 .f32 :=
  View.canon [⟨r3_3, k3_pay1 (View.ld x0 r3_0) (View.ld x1 r3_1) (View.ld x2 r3_2)⟩]

/-- The store's rectangle is the whole buffer, so it covers it. -/
theorem cover3_3 (p0 : Vec F S512x512 .f32) (y : S512x512.Idx) :
    ∃ pc ∈ ([⟨r3_3, p0⟩] : List (View.Piece (Elt F) S512x512 .f32)), y ∈ pc.1.set :=
  View.cover_of_tiled [⟨r3_3, p0⟩] S512x512.size (by rfl) y

/-! ## The body's triple -/

set_option maxHeartbeats 1000000 in
/-- The body on whole staging memrefs, the inputs' at read contents `x0`, `x1`, `x2` and the output's at anything,
    runs to the continuation holding the inputs' as they were and the output's at `out3_3` of the inputs: three loads,
    a load of the output buffer whose value is not used, and the covering store. -/
theorem sound_kernel3 (c : Dev nD) (E : Set ℕ) (i : grid3.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x512 .f32) (harg5 : arg5.IsWhole)
    (x0 : Vec F S512x256 .f32) (x1 : Vec F S512x256 .f32) (x2 : Vec F S512x1 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out3_3 x0 x1 x2)) -∗ K ⟨⟩))
      ⊢ wp frame (wpE (defs₀ (F := F)) Variants.none c none) E (cc3__final_kernel i arg2 harg2 arg3 harg3 arg4 harg4 arg5 harg5) K := by
  simp only [cc3__final_kernel_eq_skeleton]; unfold cc3__final_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the pipeline finds them (`V`); after the body at point
    `t` each input's buffer at its block and the output's at `out3_3` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KIFrame2S.lean ====
/-
  The row-sum kernel (the third pallas_call): what its runs share. The grid is 16 x 16, row-major, so point t has
  block row t / 16 and block column t % 16. The body has two conditionals on the column coordinate: at column 0 it
  clears the accumulator it keeps in a scoped buffer between points, and at column 15 it copies the accumulator to the
  output block, which is written back only there. So a point is in one of three cases: first column (A), a middle
  column (B), last column (C); no point is both first and last.
-/
import proofs.«104530_j2594160247416_1_alg».proof.Proof.Gen.KernelIdeal.Launch
import proofs.«104530_j2594160247416_1_alg».proof.Proof.Gen.KernelIdeal.Skeleton
import proofs.«104530_j2594160247416_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where it is not
    fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, in closed form over the grid -/

/-- "The column coordinate is 0", as the body computes it. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 16 = 0 :=
  (by decide +kernel : ∀ t : Fin grid2.N, cond2_0 (grid2.coords t) ↔ t.val % 16 = 0)

/-- "The column coordinate is 15", as the body computes it. -/
abbrev cond2_1 (i : grid2.Coords) : Prop := k2_cond2 i = 1#1
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- Away from the last column the output block is not stored into and not written back. -/
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel
/-- At the last column it is stored into. -/
theorem liveAt2_2_C : ∀ t : Fin cfg2.N, ¬cond2_0 (grid2.coords t) → cond2_1 (grid2.coords t) → cfg2.idle 2 (grid2.coords t) = false := by decide +kernel

/-! ## The memrefs the body is called with -/

/-- One staging buffer of the output window, through which its contents are stated. -/
abbrev VO2_2 : View sig .tc .vmem S512x1 .f32 := (Memref.whole cc2_stg2_0 : Memref sig .tc .vmem S512x1 .f32).view
abbrev ms2_0 (t : Fin cfg2.N) : Memref sig .tc .vmem S512x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2_0 : Memref sig .tc .vmem S512x1 .f32 := Memref.whole cc2_scratch0
abbrev VS2_0 : View sig .tc .vmem S512x1 .f32 := scM2_0.view

/-- Every scoped buffer of the core that is neither a staging buffer of this call nor its accumulator (the other
    calls' staging buffers), at some contents each: carried through the region unopened. -/
abbrev rest2 (c : Dev nD) : sProp 𝕄 :=
  Pipeline.scopedRestBut (Ix := Unit) (Name := ℕ) (U := UR sig nD τ) (Lvl := ℕ) (Val := Elt F) spec2 c [cc2_scratch0]

/-- The scoped rest of this call split at its accumulator. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ rest2 c) :=
  Pipeline.scopedRest_split_of_list spec2 c [cc2_scratch0] (by decide) (by decide)

/-- The class invariant with the accumulator as a memref owned at some contents. -/
theorem PhiA2_eq (c : Dev nD) :
    (Pipeline.ΦA spec2 c : sProp 𝕄)
      = iprop(iprop((∃ d, owns (c : Thread nD τ) scM2_0 fullShare d) ∗ rest2 c) ∗ (∃ r, prngReg c r)) := by
  unfold Pipeline.ΦA; rw [scopedRest2_split]; simp only [scM2_0, owns_whole]; try rfl

end Cert.KernelIdeal.Fr

end
-- ==== Proof.KIFrame2A.lean ====
/-
  The row-sum kernel's body at a point of the first column: the accumulator is cleared, then the block's partial row
  sums are added into it; the output block is not touched.
-/
import proofs.«104530_j2594160247416_1_alg».proof.Proof.KIFrame2S

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body's run in case A (first column): on whole staging memrefs - the two input blocks at their contents, the output
    block handed back as found where the case does not store into it, the accumulator at what the point before left (or
    at anything where the case clears it first) - the body runs to the continuation holding the inputs as they were
    and each buffer it stored into with its stores written, as a list of pieces (last first) that the run finds. -/
noncomputable def kernelRun2_A (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (hc0 : cond2_0 i) (hc1 : ¬cond2_1 i)
    (x0 : Vec F S512x256 .f32) (x1 : Vec F S512x256 .f32) :
    Σ' (L2 : List (View.Piece (Elt F) S512x1 .f32)), { LS0 : List (View.Piece (Elt F) S512x1 .f32) //
      ∀ (xi2 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__rowsum_kernel i arg2 harg2 arg3 harg3 arg4 harg4 arg5 harg5) K } := by
  refine ⟨[], ?_, fun xi2 E K => ?run⟩
  case run =>
    simp only [cc2__rowsum_kernel_eq_skeleton]; unfold cc2__rowsum_kernel_skel
    simp only [k2_part1_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KIFrame2B.lean ====
/-
  The row-sum kernel's body at a point of a middle column: the block's partial row sums are added into the accumulator
  the point before left; the output block is not touched.
-/
import proofs.«104530_j2594160247416_1_alg».proof.Proof.KIFrame2A

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body's run in case B (a middle column): on whole staging memrefs - the two input blocks at their contents, the output
    block handed back as found where the case does not store into it, the accumulator at what the point before left (or
    at anything where the case clears it first) - the body runs to the continuation holding the inputs as they were
    and each buffer it stored into with its stores written, as a list of pieces (last first) that the run finds. -/
noncomputable def kernelRun2_B (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (hc0 : ¬cond2_0 i) (hc1 : ¬cond2_1 i)
    (x0 : Vec F S512x256 .f32) (x1 : Vec F S512x256 .f32) (xs0 : Vec F S512x1 .f32) :
    Σ' (L2 : List (View.Piece (Elt F) S512x1 .f32)), { LS0 : List (View.Piece (Elt F) S512x1 .f32) //
      ∀ (xi2 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__rowsum_kernel i arg2 harg2 arg3 harg3 arg4 harg4 arg5 harg5) K } := by
  refine ⟨[], ?_, fun xi2 E K => ?run⟩
  case run =>
    simp only [cc2__rowsum_kernel_eq_skeleton]; unfold cc2__rowsum_kernel_skel
    simp only [k2_part1_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KIFrame2C.lean ====
/-
  The row-sum kernel's body at a point of the last column: the block's partial row sums are added into the accumulator
  the point before left, and the accumulator is copied to the output block.
-/
import proofs.«104530_j2594160247416_1_alg».proof.Proof.KIFrame2B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body's run in case C (last column): on whole staging memrefs - the two input blocks at their contents, the output
    block handed back as found where the case does not store into it, the accumulator at what the point before left (or
    at anything where the case clears it first) - the body runs to the continuation holding the inputs as they were
    and each buffer it stored into with its stores written, as a list of pieces (last first) that the run finds. -/
noncomputable def kernelRun2_C (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (hc0 : ¬cond2_0 i) (hc1 : cond2_1 i)
    (x0 : Vec F S512x256 .f32) (x1 : Vec F S512x256 .f32) (xs0 : Vec F S512x1 .f32) :
    Σ' (L2 : List (View.Piece (Elt F) S512x1 .f32)), { LS0 : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__rowsum_kernel i arg2 harg2 arg3 harg3 arg4 harg4 arg5 harg5) K } := by
  refine ⟨?_, ?_, fun E K => ?run⟩
  case run =>
    simp only [cc2__rowsum_kernel_eq_skeleton]; unfold cc2__rowsum_kernel_skel
    simp only [k2_part1_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KIFrame2.lean ====
/-
  The row-sum kernel as a region of the program: what the output block and the accumulator hold after each grid point,
  the region's proof data, and its body obligation at every point.

  After the point at position n the accumulator holds: the block's partial row sums added to a cleared accumulator when n
  is in the first column, and added to what position n - 1 left otherwise. The output block's staging buffer holds the
  accumulator's copy after a point of the last column; elsewhere it is handed back untouched and is not written back.
  Between points the invariant keeps the accumulator at the contents the point before left, beside the other calls'
  scoped buffers (unopened) and the generator register.
-/
import proofs.«104530_j2594160247416_1_alg».proof.Proof.KIFrame2C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the output block: a placeholder nothing consults. -/
def out2_A_2 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (hc0 : cond2_0 i) (hc1 : ¬cond2_1 i)
    (x0 x1 : Vec F S512x256 .f32) : Vec F S512x1 .f32 :=
  VO2_2.read (Elt F) (VO2_2.writes (Elt F) VO2_2.junk (kernelRun2_A c i arg2 harg2 arg3 harg3 arg4 harg4 arg5 harg5 hc0 hc1 x0 x1).1)

/-- Case A's stores into the accumulator cover it. -/
theorem scover2_A_0 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (hc0 : cond2_0 i) (hc1 : ¬cond2_1 i)
    (x0 x1 : Vec F S512x256 .f32) (y : S512x1.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S512x1.size (by sl_kernel_rfl) y

/-- What case A leaves in the accumulator. -/
def sout2_A_0 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (hc0 : cond2_0 i) (hc1 : ¬cond2_1 i)
    (x0 x1 : Vec F S512x256 .f32) : Vec F S512x1 .f32 :=
  VS2_0.read (Elt F) (VS2_0.writes (Elt F) VS2_0.junk (kernelRun2_A c i arg2 harg2 arg3 harg3 arg4 harg4 arg5 harg5 hc0 hc1 x0 x1).2.1)

/-- Case B stores nothing into the output block: a placeholder nothing consults. -/
def out2_B_2 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (hc0 : ¬cond2_0 i) (hc1 : ¬cond2_1 i)
    (x0 x1 : Vec F S512x256 .f32) (xs0 : Vec F S512x1 .f32) : Vec F S512x1 .f32 :=
  VO2_2.read (Elt F) (VO2_2.writes (Elt F) VO2_2.junk (kernelRun2_B c i arg2 harg2 arg3 harg3 arg4 harg4 arg5 harg5 hc0 hc1 x0 x1 xs0).1)

theorem scover2_B_0 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (hc0 : ¬cond2_0 i) (hc1 : ¬cond2_1 i)
    (x0 x1 : Vec F S512x256 .f32) (xs0 : Vec F S512x1 .f32) (y : S512x1.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S512x1.size (by sl_kernel_rfl) y

/-- What case B leaves in the accumulator. -/
def sout2_B_0 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (hc0 : ¬cond2_0 i) (hc1 : ¬cond2_1 i)
    (x0 x1 : Vec F S512x256 .f32) (xs0 : Vec F S512x1 .f32) : Vec F S512x1 .f32 :=
  VS2_0.read (Elt F) (VS2_0.writes (Elt F) VS2_0.junk (kernelRun2_B c i arg2 harg2 arg3 harg3 arg4 harg4 arg5 harg5 hc0 hc1 x0 x1 xs0).2.1)

/-- Case C's one store into the output block covers it. -/
theorem cover2_C_2 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (hc0 : ¬cond2_0 i) (hc1 : cond2_1 i)
    (x0 x1 : Vec F S512x256 .f32) (xs0 : Vec F S512x1 .f32) (y : S512x1.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S512x1.size (by sl_kernel_rfl) y

/-- What case C leaves in the output block's staging buffer. -/
def out2_C_2 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (hc0 : ¬cond2_0 i) (hc1 : cond2_1 i)
    (x0 x1 : Vec F S512x256 .f32) (xs0 : Vec F S512x1 .f32) : Vec F S512x1 .f32 :=
  VO2_2.read (Elt F) (VO2_2.writes (Elt F) VO2_2.junk (kernelRun2_C c i arg2 harg2 arg3 harg3 arg4 harg4 arg5 harg5 hc0 hc1 x0 x1 xs0).1)

theorem scover2_C_0 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (hc0 : ¬cond2_0 i) (hc1 : cond2_1 i)
    (x0 x1 : Vec F S512x256 .f32) (xs0 : Vec F S512x1 .f32) (y : S512x1.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S512x1.size (by sl_kernel_rfl) y

/-- What case C leaves in the accumulator. -/
def sout2_C_0 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (hc0 : ¬cond2_0 i) (hc1 : cond2_1 i)
    (x0 x1 : Vec F S512x256 .f32) (xs0 : Vec F S512x1 .f32) : Vec F S512x1 .f32 :=
  VS2_0.read (Elt F) (VS2_0.writes (Elt F) VS2_0.junk (kernelRun2_C c i arg2 harg2 arg3 harg3 arg4 harg4 arg5 harg5 hc0 hc1 x0 x1 xs0).2.1)

/-! ## What the output block and the accumulator hold after each point -/

/-- After the body at position n: (the output block's staging buffer, the accumulator). The case is read off n's
    column; a case that does not clear the accumulator runs on what position n - 1 left in it. -/
def outsAt2 (c : Dev nD) : (n : ℕ) → n < cfg2.N → Vec F S512x1 .f32 × Vec F S512x1 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 16 = 0 then
      if h1 : (n + 1) % 16 = 15 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 16 = 15 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 16 = 0) (h1 : ¬t.val % 16 = 15) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

theorem outsAt2_B (c : Dev nD) (t : Fin cfg2.N) (h0 : ¬t.val % 16 = 0) (h1 : ¬t.val % 16 = 15) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 16 = 0) (h1 : t.val % 16 = 15) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position n: at the start the class invariant (every scoped buffer at anything); afterwards the accumulator
    at what the point before left, the other scoped buffers unopened, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ rest2 (F := F) c) ∗ (∃ r, prngReg c r)) := by
  cases n with
  | zero => exact absurd rfl hz
  | succ n => rfl

/-! ## The proof data -/

/-- The region's proof data on core c: the arrays as the region finds them; after the body at point t each input's
    buffer at its block and the output's at `outsAt2`; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks; the column says which case the point is in; the
    invariant hands the body the accumulator at what the point before left (at anything at the very first point) and
    takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 256 := lt_of_lt_of_eq t.isLt (show cfg2.N = 256 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 16 = 0
  · by_cases h1 : t.val % 16 = 15
    · exfalso; omega
    · rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, Hrest⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _)
            iexact Hrest
          iexact Hg
        isplitl [Ho]; · iexact Ho
        isplitl [H0]; · iexact H0
        isplitl [H1]; · iexact H1
        iexists _; iexact H2
      · rw [PhiS2_castSucc V c t, PhiS2_pos V c _ _ hz]
        iintro ⟨⟨⟨HS0, Hrest⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _)
            iexact Hrest
          iexact Hg
        isplitl [Ho]; · iexact Ho
        isplitl [H0]; · iexact H0
        isplitl [H1]; · iexact H1
        iexists _; iexact H2
  · have hz : t.val ≠ 0 := fun h => h0 (by rw [h])
    by_cases h1 : t.val % 16 = 15
    · rw [show (dat2 V c).leavesExact 2 t = owns (c : Thread nD τ) (ms2_2 t) fullShare ((dat2 V c).after 2 t) from by
        unfold Dat.leavesExact; rw [liveAt2_2_C t (fun h => h0 ((hcond2_0 t).mp h)) ((hcond2_1 t).mpr h1)], after2_2]
      rw [outsAt2_C V c t h0 h1]
      unfold out2_C_2 sout2_C_0; (try dsimp only)
      rw [PhiS2_castSucc V c t, PhiS2_pos V c _ _ hz]
      iintro ⟨⟨⟨HS0, Hrest⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ hz]
      iintro ⟨⟨⟨HS0, Hrest⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_B_0 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class invariant back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

theorem hout2 (c : Dev nD) : (dat2 V c).Φ (Fin.last cfg2.N) ⊢ Pipeline.ΦA spec2 c :=
  Phi_out2 V c _ (by rw [Fin.val_last]; have : cfg2.N = 256 := N_2; omega)

end Cert.KernelIdeal.Fr

end
-- ==== Proof.KIRun.lean ====
/-
  The whole program as four kernel regions in a row. Between two regions every unscoped buffer of the core is held at
  a named valuation: the launch memory, then after each region its arrays at what the pipeline's write-backs leave and
  every other buffer as before. The regions chain, the launch makes the first thread state, and the last thread state
  read against the final memory gives every unscoped buffer's final contents, the three arguments among them (no
  region writes an argument: each reads it through an input window or bypasses it).
-/
import proofs.«104530_j2594160247416_1_alg».proof.Proof.KIFrame0
import proofs.«104530_j2594160247416_1_alg».proof.Proof.KIFrame1
import proofs.«104530_j2594160247416_1_alg».proof.Proof.KIFrame3
import proofs.«104530_j2594160247416_1_alg».proof.Proof.KIFrame2

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit: its arrays at what the pipeline leaves (the inputs as entered, the output's write-backs
    folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (the inputs as entered, the output's write-backs
    folded), every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- At region 2's exit: its arrays at what the pipeline leaves (the inputs as entered, the output's write-backs
    folded), every other buffer as entered. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references. -/
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-- At region 3's exit: its arrays at what the pipeline leaves (the inputs as entered, the output's write-backs
    folded), every other buffer as entered. -/
def W4 (c : Dev nD) : Valuation τ sig (Elt F) :=
  Pipeline.withArrays spec3 c (W3 m ρ c) fun w => (dat3 (V3 m ρ) c).arrAt w cfg3.N
theorem W4_arr (c : Dev nD) (w : Fin cfg3.W) :
    W4 m ρ c (Proc.devRef .tc (Pipeline.arrRef spec3 w)) = (dat3 (V3 m ρ) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
/-- The same read at the TensorCore's references. -/
abbrev V4 : (c : Dev nD) → (b : Ref sig .tc) → Buf (Elt F) ((c : Thread nD τ).loc b) := fun c b => W4 m ρ c b
theorem hF3 (c : Dev nD) (w : Fin cfg3.W) : (dat3 (V3 m ρ) c).arrAt w cfg3.N = V4 m ρ c (Pipeline.arrRef spec3 w) :=
  (W4_arr m ρ c w).symm
theorem hrest3 (c : Dev nD) : ∀ b, b ∉ Finset.univ.image (Pipeline.arrRef spec3) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := (W2_arr m ρ c 1).trans (((dat1 (V1 m ρ) c).arrAt_in 1 rfl _).trans (A_eq1 (V1 m ρ) c 1))
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V3 m ρ) c
abbrev 𝒱₀ : Variants := Variants.none
abbrev L : GSem nD τ sig → Finset Unit := fun _ => ∅
abbrev lv : GSem nD τ sig → Unit → ℕ := fun _ _ => 0
/-- What rides beside the buffers through every region: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owing clause. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W0`, left at `W1`. Its arrays are split
    out of the unscoped buffers and put back at the exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W1`, left at `W2`. Its arrays are split
    out of the unscoped buffers and put back at the exit contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W2`, left at `W3`. Its arrays are split
    out of the unscoped buffers and put back at the exit contents; the generator register goes into the region's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec2 c : sProp 𝕄)).trans (hin2 (V2 m ρ) c); unfold Pipeline.ΦA
    iintro ⟨Hp, -, Hr⟩
    isplitl [Hr]; · iexact Hr
    iexact Hp
  hout c := by
    rw [Pipeline.ownSems0_none]
    refine (hout2 (V2 m ρ) c).trans (?_ : (Pipeline.ΦA spec2 c : sProp 𝕄) ⊢ _); unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W3`, left at `W4`. Its arrays are split
    out of the unscoped buffers and put back at the exit contents; the generator register goes into the region's
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V3 m ρ c) (V4 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the launch -/

abbrev segs : List (Pipeline.Seg (pcfgs (F := F)) adm (pdats m ρ) () defs₀ 𝒱₀ L lv) :=
  [ .region (reg0 m ρ), .region (reg1 m ρ), .region (reg2 m ρ), .region (reg3 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    the final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame claim at any float instance: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun s h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.KernelIdeal.Fr

end
-- ==== Proof.Spec.lean ====
/-
  The function both programs compute, entry by entry, on the extended reals.

  With XL = x · l and YL = y · l (plain matrix products), the Gram expansion of the squared distance between row p of YL
  and row q of XL is  |YL_p|² + |XL_q|² − 2 · ⟨YL_p, XL_q⟩;  the kernel entry is  exp(−√(max(that, 0)) / 256) · c  with c the
  binary32 word nearest 1/√(2π), and the result normalises every row by its sum over all 8192 columns plus a small constant.
  Float literals stay as the words the programs print: both sides carry the same words, so none is ever evaluated.
-/
import Idealize.ShloMosaic.PureOps.Ideal
import Idealize.ShloMosaic.Lib.ValueIdx

noncomputable section

open scoped BigOperators

namespace Cert.Gram

open Idealize.ShloMosaic Idealize.ShloMosaic.ValueIdx

/-- The three array shapes of the statement: a support matrix, the square factor, the result. -/
abbrev SA : Shape := ⟨2, ![8192, 256]⟩
abbrev SL : Shape := ⟨2, ![256, 256]⟩
abbrev SO : Shape := ⟨2, ![8192, 8192]⟩

/-- The words of the four literals: 2, 0, 256, the rounded 1/√(2π), and the rounded 10⁻⁶. -/
abbrev cTwo : EReal := Ideal.ofBits .f32 0x40000000#32
abbrev cZero : EReal := Ideal.ofBits .f32 0x00000000#32
abbrev c256 : EReal := Ideal.ofBits .f32 0x43800000#32
abbrev cGauss : EReal := Ideal.ofBits .f32 0x3ECC422A#32
abbrev cEps : EReal := Ideal.ofBits .f32 0x358637BD#32

/-- Entry (p, c) of the product a · l. -/
def linE (a : FVec Ideal SA .f32) (l : FVec Ideal SL .f32) (p : Fin 8192) (c : Fin 256) : EReal :=
  ∑ k : Fin 256, a (ix2 p k) * l (ix2 k c)

/-- The product a · l as an array. -/
def lin (a : FVec Ideal SA .f32) (l : FVec Ideal SL .f32) : FVec Ideal SA .f32 :=
  fun i => linE a l (i 0) (i 1)

theorem lin_ix2 (a : FVec Ideal SA .f32) (l : FVec Ideal SL .f32) (p : Fin 8192) (c : Fin 256) :
    lin a l (ix2 p c) = linE a l p c := rfl

/-- The squared norm of row p. -/
def sqE (u : FVec Ideal SA .f32) (p : Fin 8192) : EReal := ∑ k : Fin 256, u (ix2 p k) * u (ix2 p k)

/-- The inner product of row p of yl with row q of xl. -/
def crossE (yl xl : FVec Ideal SA .f32) (p q : Fin 8192) : EReal := ∑ k : Fin 256, yl (ix2 p k) * xl (ix2 q k)

/-- The scalar map from the three row statistics to the kernel entry:
    exp(−√(max((ysq + xsq) − 2·cross, 0)) / 256) · c. -/
def kOf (ysq xsq cross : EReal) : EReal :=
  Ideal.exp (Ideal.div (-(Ideal.sqrt (max ((ysq + xsq) - cTwo * cross) cZero))) c256) * cGauss

/-- The unnormalised kernel entry (p, q). -/
def kE (yl xl : FVec Ideal SA .f32) (p q : Fin 8192) : EReal :=
  kOf (sqE yl p) (sqE xl q) (crossE yl xl p q)

/-- The sum of row p of the unnormalised kernel over all columns. -/
def rowsumE (yl xl : FVec Ideal SA .f32) (p : Fin 8192) : EReal := ∑ q : Fin 8192, kE yl xl p q

/-- Entry (p, q) of the result from the two products. -/
def outE (yl xl : FVec Ideal SA .f32) (p q : Fin 8192) : EReal :=
  Ideal.div (kE yl xl p q) (rowsumE yl xl p + cEps)

/-- The result as one function of the three argument arrays (x, y the support matrices, l the factor). -/
def G (x y : FVec Ideal SA .f32) (l : FVec Ideal SL .f32) : FVec Ideal SO .f32 :=
  fun i => outE (lin y l) (lin x l) (i 0) (i 1)

theorem G_ix2 (x y : FVec Ideal SA .f32) (l : FVec Ideal SL .f32) (p q : Fin 8192) :
    G x y l (ix2 p q) = outE (lin y l) (lin x l) p q := rfl

end Cert.Gram

end
-- ==== Proof.LibKeepdims.lean ====
/-
  Keepdims column forms read at an index, at the exact values: a lane sum [a, b] → [a] is the finite sum over the row;
  the cast of the vector of sums [a] → [a, 1] keeps each entry in its row; the broadcast of a column [a, 1] over the
  lanes [a, b] repeats the row's entry on every lane. With the row broadcast [1, b] → [a, b] these are all a row-wise
  normalization needs.
-/
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-- An `[a]` array cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast over `b` lanes reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array, at row `p`: the sum over the row's `b` entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => by
      match c with
      | ⟨0, _⟩ => exact Fin.ext rfl
      | ⟨1, _⟩ => exact Fin.ext rfl))

end Cert.LibKeepdims
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.Pay0.lean ====
/-
  The values regions 0, 1 store and the two small values of region 2, read at an index on the extended reals.

  Regions 0 and 1 store the product of a 1024 × 256 block with the 256 × 256 factor: the change of format in front of
  the product is the identity here and the accumulator starts at zero, so entry (p, c) is Σ_k a[p, k] · l[k, c].
  Region 2 resets its row-sum column to zero, and writes its column back through a cast to the same shape.
-/
import proofs.«104530_j2594160247416_1_alg».proof.Proof.Gen.KernelIdeal.Skeleton
import proofs.«104530_j2594160247416_1_alg».proof.Proof.Spec
import proofs.«104530_j2594160247416_1_alg».proof.Proof.LibKeepdims
import proofs.«104530_j2594160247416_1_alg».proof.Proof.LibMatmulRead
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

open scoped BigOperators

namespace Cert.Gram.Pay

open Idealize.ShloMosaic Idealize.SL.Sem Idealize.ShloMosaic.ValueIdx
open Cert.KernelIdeal Cert.KernelIdeal.Gen

/-- The two matrix products of regions 0 and 1 contract the left operand's columns with the right operand's rows. -/
theorem rowsByCols_lin : MatmulRead.RowsByCols dot_S1024x256_S256x256_S1024x256_1_0_0_1_n_n :=
  ⟨rfl, rfl, rfl, rfl, rfl, rfl⟩

/-- Region 0's stored block, at (p, c): the change of format is the identity on the extended reals and the
    accumulator starts at zero, so the entry is the plain sum over the contracted axis. -/
theorem pay0_apply (v0 : Vec Ideal S1024x256 .f32) (v2 : Vec Ideal S256x256 .f32) (p : Fin 1024) (c : Fin 256) :
    k0_pay1 (F := Ideal) v0 v2 (ix2 p c) = ∑ k : Fin 256, v0 (ix2 p k) * v2 (ix2 k c) := by
  unfold k0_pay1
  exact MatmulRead.matmul_zero_ix2 rowsByCols_lin rfl rfl none _ _ p c

/-- Region 1's stored block, at (p, c): the same product. -/
theorem pay1_apply (v0 : Vec Ideal S1024x256 .f32) (v2 : Vec Ideal S256x256 .f32) (p : Fin 1024) (c : Fin 256) :
    k1_pay1 (F := Ideal) v0 v2 (ix2 p c) = ∑ k : Fin 256, v0 (ix2 p k) * v2 (ix2 k c) := by
  unfold k1_pay1
  exact MatmulRead.matmul_zero_ix2 rowsByCols_lin rfl rfl none _ _ p c

/-- The column the row-sum accumulator is reset to is zero at every entry. -/
theorem pay2_zero (p : Fin 512) (u : Fin 1) : k2_pay2 (F := Ideal) (ix2 p u) = 0 := by
  unfold k2_pay2
  rw [shapeCast_self]
  exact Ideal.ofBits_zero_f32

/-- A cast of a column to its own shape changes nothing. -/
theorem pay2_cast (v37 : FVec Ideal S512x1 .f32) : k2_pay1 (F := Ideal) v37 = v37 := by
  unfold k2_pay1
  exact shapeCast_self _ _

end Cert.Gram.Pay

end
-- ==== Proof.KIVal0.lean ====
/-
  Region 0, from blocks to the array, on the extended reals.

  The region's eight grid points each stage one block of 1024 rows of the first support matrix and the whole 256 × 256
  factor, and write back the block's product with the factor. Row p of the block staged at point t is row 1024 · t + p of
  the support matrix, so what point t writes back is its block of rows of the product of the whole arrays; the eight
  blocks tile the 8192 rows, so after the last point the output array is the whole product.
-/
import proofs.«104530_j2594160247416_1_alg».proof.Proof.KIFrame0
import proofs.«104530_j2594160247416_1_alg».proof.Proof.Pay0
import Idealize.ShloMosaic.Lib.Pipeline.Value

noncomputable section

open scoped BigOperators

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the eight points: the row block of the support matrix moves with the output's, the
    factor stays whole, and the output's row block at point t is t. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point t writes back is its block of rows of the product of the whole arrays: row p of the block is row
    1024 · t + p of the support matrix, and the factor is read whole. -/
theorem flushed0_eq (c : Dev nD) (t : Fin cfg0.N) :
    (dat0 (F := Ideal) V c).flushed 2 t = ((cfg0.win 2).blk t).view.read (Elt Ideal) (Cert.Gram.lin (V c main_arg0) (V c main_arg2)) := by
  show (cfg0.win 2).cut (grid0.coords t) ((dat0 V c).after 2 t) = _
  rw [after0_2]
  unfold out0_2
  rw [View.canon_unit_zero hz0]
  simp only [View.ld_unit_zero (S := S1024x256) hz0, View.ld_unit_zero (S := S256x256) hz0]
  funext j
  obtain ⟨p, cc, rfl⟩ : ∃ (p : Fin 1024) (cc : Fin 256), j = ix2 p cc := ⟨j 0, j 1, eq_ix2 (n0 := 1024) (n1 := 256) j⟩
  obtain ⟨e0, e1, e2, e3, e4, e5⟩ := idx_facts0 t
  have ht : t.val < 8 := lt_of_lt_of_eq t.isLt N_0
  have hp : p.val < 1024 := p.isLt
  have hemb : ((cfg0.win 2).blk t).view.emb (ix2 p cc) = ix2 (⟨win0_2.index t (0 : Fin 2) * 1024 + p.val, by omega⟩ : Fin 8192) cc := by
    funext a; apply Fin.ext
    match a with
    | ⟨0, _⟩ => show win0_2.index t (0 : Fin 2) * 1024 + 1 * p.val = win0_2.index t (0 : Fin 2) * 1024 + p.val; omega
    | ⟨1, _⟩ => show win0_2.index t (1 : Fin 2) * 256 + 1 * cc.val = cc.val; omega
  show k0_pay1 (F := Ideal) (iblk0 V c 0 t) (iblk0 V c 1 t) (ix2 p cc) = Cert.Gram.lin (V c main_arg0) (V c main_arg2) (((cfg0.win 2).blk t).view.emb (ix2 p cc))
  refine (Cert.Gram.Pay.pay0_apply (iblk0 V c 0 t) (iblk0 V c 1 t) p cc).trans ?_
  refine Eq.trans ?_ (congrArg (Cert.Gram.lin (V c main_arg0) (V c main_arg2)) hemb).symm
  rw [Cert.Gram.lin_ix2]
  unfold Cert.Gram.linE
  refine Finset.sum_congr rfl fun k _ => ?_
  have h0 : iblk0 V c 0 t (ix2 p k) = V c main_arg0 (ix2 (⟨win0_2.index t (0 : Fin 2) * 1024 + p.val, by omega⟩ : Fin 8192) k) := by
    show V c main_arg0 (((cfg0.win 0).blk t).view.emb (ix2 p k)) = _
    refine congrArg (V c main_arg0) (funext fun a => Fin.ext ?_)
    match a with
    | ⟨0, _⟩ => show win0_0.index t (0 : Fin 2) * 1024 + 1 * p.val = win0_2.index t (0 : Fin 2) * 1024 + p.val; omega
    | ⟨1, _⟩ => show win0_0.index t (1 : Fin 2) * 256 + 1 * k.val = k.val; omega
  have h1 : iblk0 V c 1 t (ix2 k cc) = V c main_arg2 (ix2 k cc) := by
    show V c main_arg2 (((cfg0.win 1).blk t).view.emb (ix2 k cc)) = _
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 256 + 1 * cc.val = cc.val; omega
  rw [h0, h1]

/-- An index of the array is in point t's block iff each coordinate is in the block's range on its axis. -/
theorem mem_blk0 (t : Fin cfg0.N) (i : S8192x256.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_v0).slice (win0_2.rect t)).set ↔ _
  rw [View.set_slice_whole, Rect.mem_set_unit]
  exact Iff.rfl

/-- Every row lies in the block of the point r / 1024. -/
theorem cover0 (i : S8192x256.Idx) : ∃ t : Fin cfg0.N, (cfg0.win 2).flush t = true ∧ i ∈ ((cfg0.win 2).blk t).view.set := by
  have hi0 : (i 0).val < 8192 := (i 0).isLt
  have hi1 : (i 1).val < 256 := (i 1).isLt
  let t : Fin cfg0.N := ⟨(i 0).val / 1024, by rw [show cfg0.N = 8 from N_0]; omega⟩
  obtain ⟨e0, e1, e2, e3, e4, e5⟩ := idx_facts0 t
  have e5' : win0_2.index t (0 : Fin 2) = (i 0).val / 1024 := e5
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 256 ≤ (i 1).val ∧ (i 1).val < win0_2.index t (1 : Fin 2) * 256 + 256; omega

/-- After the eight points the output array of region 0 is the product of the first support matrix with the factor. -/
theorem final0 (c : Dev nD) : (dat0 (F := Ideal) V c).arrAt 2 cfg0.N = Cert.Gram.lin (V c main_arg0) (V c main_arg2) :=
  (dat0 (F := Ideal) V c).arrAt_eq_of_cover 2 (Cert.Gram.lin (V c main_arg0) (V c main_arg2)) (fun t _ => flushed0_eq V c t) cover0

end Cert.KernelIdeal.Val

end
-- ==== Proof.KIVal1.lean ====
/-
  Region 1, from blocks to the array, on the extended reals.

  The region's eight grid points each stage one block of 1024 rows of the second support matrix and the whole 256 × 256
  factor, and write back the block's product with the factor. Row p of the block staged at point t is row 1024 · t + p of
  the support matrix, so what point t writes back is its block of rows of the product of the whole arrays; the eight
  blocks tile the 8192 rows, so after the last point the output array is the whole product.
-/
import proofs.«104530_j2594160247416_1_alg».proof.Proof.KIFrame1
import proofs.«104530_j2594160247416_1_alg».proof.Proof.Pay0
import Idealize.ShloMosaic.Lib.Pipeline.Value

noncomputable section

open scoped BigOperators

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the eight points: the row block of the support matrix moves with the output's, the
    factor stays whole, and the output's row block at point t is t. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- What point t writes back is its block of rows of the product of the whole arrays: row p of the block is row
    1024 · t + p of the support matrix, and the factor is read whole. -/
theorem flushed1_eq (c : Dev nD) (t : Fin cfg1.N) :
    (dat1 (F := Ideal) V c).flushed 2 t = ((cfg1.win 2).blk t).view.read (Elt Ideal) (Cert.Gram.lin (V c main_arg1) (V c main_arg2)) := by
  show (cfg1.win 2).cut (grid1.coords t) ((dat1 V c).after 2 t) = _
  rw [after1_2]
  unfold out1_2
  rw [View.canon_unit_zero hz1]
  simp only [View.ld_unit_zero (S := S1024x256) hz1, View.ld_unit_zero (S := S256x256) hz1]
  funext j
  obtain ⟨p, cc, rfl⟩ : ∃ (p : Fin 1024) (cc : Fin 256), j = ix2 p cc := ⟨j 0, j 1, eq_ix2 (n0 := 1024) (n1 := 256) j⟩
  obtain ⟨e0, e1, e2, e3, e4, e5⟩ := idx_facts1 t
  have ht : t.val < 8 := lt_of_lt_of_eq t.isLt N_1
  have hp : p.val < 1024 := p.isLt
  have hemb : ((cfg1.win 2).blk t).view.emb (ix2 p cc) = ix2 (⟨win1_2.index t (0 : Fin 2) * 1024 + p.val, by omega⟩ : Fin 8192) cc := by
    funext a; apply Fin.ext
    match a with
    | ⟨0, _⟩ => show win1_2.index t (0 : Fin 2) * 1024 + 1 * p.val = win1_2.index t (0 : Fin 2) * 1024 + p.val; omega
    | ⟨1, _⟩ => show win1_2.index t (1 : Fin 2) * 256 + 1 * cc.val = cc.val; omega
  show k1_pay1 (F := Ideal) (iblk1 V c 0 t) (iblk1 V c 1 t) (ix2 p cc) = Cert.Gram.lin (V c main_arg1) (V c main_arg2) (((cfg1.win 2).blk t).view.emb (ix2 p cc))
  refine (Cert.Gram.Pay.pay1_apply (iblk1 V c 0 t) (iblk1 V c 1 t) p cc).trans ?_
  refine Eq.trans ?_ (congrArg (Cert.Gram.lin (V c main_arg1) (V c main_arg2)) hemb).symm
  rw [Cert.Gram.lin_ix2]
  unfold Cert.Gram.linE
  refine Finset.sum_congr rfl fun k _ => ?_
  have h0 : iblk1 V c 0 t (ix2 p k) = V c main_arg1 (ix2 (⟨win1_2.index t (0 : Fin 2) * 1024 + p.val, by omega⟩ : Fin 8192) k) := by
    show V c main_arg1 (((cfg1.win 0).blk t).view.emb (ix2 p k)) = _
    refine congrArg (V c main_arg1) (funext fun a => Fin.ext ?_)
    match a with
    | ⟨0, _⟩ => show win1_0.index t (0 : Fin 2) * 1024 + 1 * p.val = win1_2.index t (0 : Fin 2) * 1024 + p.val; omega
    | ⟨1, _⟩ => show win1_0.index t (1 : Fin 2) * 256 + 1 * k.val = k.val; omega
  have h1 : iblk1 V c 1 t (ix2 k cc) = V c main_arg2 (ix2 k cc) := by
    show V c main_arg2 (((cfg1.win 1).blk t).view.emb (ix2 k cc)) = _
    refine congrArg (V c main_arg2) (funext fun a => Fin.ext ?_)
    match a with
    | ⟨0, _⟩ => show win1_1.index t (0 : Fin 2) * 256 + 1 * k.val = k.val; omega
    | ⟨1, _⟩ => show win1_1.index t (1 : Fin 2) * 256 + 1 * cc.val = cc.val; omega
  rw [h0, h1]

/-- An index of the array is in point t's block iff each coordinate is in the block's range on its axis. -/
theorem mem_blk1 (t : Fin cfg1.N) (i : S8192x256.Idx) :
    i ∈ ((cfg1.win 2).blk t).view.set ↔ ∀ a : Fin 2, win1_2.index t a * S1024x256.size a ≤ (i a).val ∧ (i a).val < win1_2.index t a * S1024x256.size a + S1024x256.size a := by
  show i ∈ ((View.whole main_v1).slice (win1_2.rect t)).set ↔ _
  rw [View.set_slice_whole, Rect.mem_set_unit]
  exact Iff.rfl

/-- Every row lies in the block of the point r / 1024. -/
theorem cover1 (i : S8192x256.Idx) : ∃ t : Fin cfg1.N, (cfg1.win 2).flush t = true ∧ i ∈ ((cfg1.win 2).blk t).view.set := by
  have hi0 : (i 0).val < 8192 := (i 0).isLt
  have hi1 : (i 1).val < 256 := (i 1).isLt
  let t : Fin cfg1.N := ⟨(i 0).val / 1024, by rw [show cfg1.N = 8 from N_1]; omega⟩
  obtain ⟨e0, e1, e2, e3, e4, e5⟩ := idx_facts1 t
  have e5' : win1_2.index t (0 : Fin 2) = (i 0).val / 1024 := e5
  refine ⟨t, flush1_2 t, ?_⟩
  rw [mem_blk1]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 256 ≤ (i 1).val ∧ (i 1).val < win1_2.index t (1 : Fin 2) * 256 + 256; omega

/-- After the eight points the output array of region 1 is the product of the second support matrix with the factor. -/
theorem final1 (c : Dev nD) : (dat1 (F := Ideal) V c).arrAt 2 cfg1.N = Cert.Gram.lin (V c main_arg1) (V c main_arg2) :=
  (dat1 (F := Ideal) V c).arrAt_eq_of_cover 2 (Cert.Gram.lin (V c main_arg1) (V c main_arg2)) (fun t _ => flushed1_eq V c t) cover1

end Cert.KernelIdeal.Val

end
-- ==== Proof.KIVal2P.lean ====
/-
  What each case of the row-sum kernel's body leaves, as a value of what it is given — for any float type.

  The run of each case left its stores as pieces; read back through the whole buffer, each piece list is one value: the
  accumulator ends at the body's sum value of the two input blocks and the accumulator's contents before (the zero
  column in the first column, where the body has just cleared it and reads the cleared buffer back), passed through a
  cast to the same shape; in the last column the output block receives a copy of that.
-/
import proofs.«104530_j2594160247416_1_alg».proof.Proof.KIFrame2
import Idealize.ShloMosaic.Lib.ValueIdx
import Idealize.ShloMosaic.Lib.Pipeline.Value
import Idealize.ShloMosaic.Lib.Tactic

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.Tactic Idealize.SL.Sem
open Idealize.ShloMosaic.ValueIdx
open Idealize.ShloMosaic.Pipeline (Dat)

variable {F : FTy → Type} [FloatOps F]

/-- The zero offsets of a whole-block access. -/
theorem hz : (![0, 0] : Fin 2 → Nat) = fun _ => 0 := funext fun a => by fin_cases a <;> rfl

/-- First column: the accumulator is cleared, read back, and the block's row sums are added to the zero column. -/
theorem sout2_A_0_eq (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (hc0 : cond2_0 i) (hc1 : ¬cond2_1 i)
    (x0 x1 : Vec F S512x256 .f32) :
    sout2_A_0 c i arg2 harg2 arg3 harg3 arg4 harg4 arg5 harg5 hc0 hc1 x0 x1 = k2_pay1 (k2_pay3 x0 x1 (k2_pay2 (F := F))) := by
  unfold sout2_A_0
  rw [View.read_writes_eq_canon _ _ _ (scover2_A_0 c i arg2 harg2 arg3 harg3 arg4 harg4 arg5 harg5 hc0 hc1 x0 x1)]
  unfold kernelRun2_A
  dsimp only
  sl_unfold_words
  rw [View.canon_cons_unit_zero (S := S512x1) hz, View.readCov_unit_zero (S := S512x1) _ hz]
  simp only [View.readAt_eq_ld, harg2.read_unread, harg3.read_unread, harg4.read_unread, harg5.read_unread, View.ld_unit_zero (S := S512x256) hz, View.ld_unit_zero (S := S512x1) hz]

/-- A middle column: the block's row sums are added to what the accumulator held. -/
theorem sout2_B_0_eq (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (hc0 : ¬cond2_0 i) (hc1 : ¬cond2_1 i)
    (x0 x1 : Vec F S512x256 .f32) (xs0 : Vec F S512x1 .f32) :
    sout2_B_0 c i arg2 harg2 arg3 harg3 arg4 harg4 arg5 harg5 hc0 hc1 x0 x1 xs0 = k2_pay1 (k2_pay3 x0 x1 xs0) := by
  unfold sout2_B_0
  rw [View.read_writes_eq_canon _ _ _ (scover2_B_0 c i arg2 harg2 arg3 harg3 arg4 harg4 arg5 harg5 hc0 hc1 x0 x1 xs0)]
  unfold kernelRun2_B
  dsimp only
  sl_unfold_words
  rw [View.canon_unit_zero hz]
  simp only [View.readAt_eq_ld, harg2.read_unread, harg3.read_unread, harg4.read_unread, harg5.read_unread, View.ld_unit_zero (S := S512x256) hz, View.ld_unit_zero (S := S512x1) hz]

/-- Last column, the accumulator: as in a middle column. -/
theorem sout2_C_0_eq (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (hc0 : ¬cond2_0 i) (hc1 : cond2_1 i)
    (x0 x1 : Vec F S512x256 .f32) (xs0 : Vec F S512x1 .f32) :
    sout2_C_0 c i arg2 harg2 arg3 harg3 arg4 harg4 arg5 harg5 hc0 hc1 x0 x1 xs0 = k2_pay1 (k2_pay3 x0 x1 xs0) := by
  unfold sout2_C_0
  rw [View.read_writes_eq_canon _ _ _ (scover2_C_0 c i arg2 harg2 arg3 harg3 arg4 harg4 arg5 harg5 hc0 hc1 x0 x1 xs0)]
  unfold kernelRun2_C
  dsimp only
  sl_unfold_words
  rw [View.canon_unit_zero hz]
  simp only [View.readAt_eq_ld, harg2.read_unread, harg3.read_unread, harg4.read_unread, harg5.read_unread, View.ld_unit_zero (S := S512x256) hz, View.ld_unit_zero (S := S512x1) hz]

/-- Last column, the output block: the accumulator's new contents, copied. -/
theorem out2_C_2_eq (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x1 .f32) (harg5 : arg5.IsWhole) (hc0 : ¬cond2_0 i) (hc1 : cond2_1 i)
    (x0 x1 : Vec F S512x256 .f32) (xs0 : Vec F S512x1 .f32) :
    out2_C_2 c i arg2 harg2 arg3 harg3 arg4 harg4 arg5 harg5 hc0 hc1 x0 x1 xs0 = k2_pay1 (k2_pay3 x0 x1 xs0) := by
  unfold out2_C_2
  rw [View.read_writes_eq_canon _ _ _ (cover2_C_2 c i arg2 harg2 arg3 harg3 arg4 harg4 arg5 harg5 hc0 hc1 x0 x1 xs0)]
  unfold kernelRun2_C
  dsimp only
  sl_unfold_words
  rw [View.canon_unit_zero hz, View.readCov_unit_zero (S := S512x1) _ hz]
  simp only [View.readAt_eq_ld, harg2.read_unread, harg3.read_unread, harg4.read_unread, harg5.read_unread, View.ld_unit_zero (S := S512x256) hz, View.ld_unit_zero (S := S512x1) hz]

end Cert.KernelIdeal.Val

end
-- ==== Proof.Pay.lean ====
/-
  The values regions 2 and 3 compute from two row blocks, read at an index on the extended reals.

  Both regions form the same 512 × 512 block of kernel entries from a block a of 512 rows of y · l and a block b of 512
  rows of x · l: the inner products ⟨a_p, b_q⟩ by a matrix product against the transposed second block into a zero
  accumulator, the squared norms |a_p|² and |b_q|² by lane sums (the second column turned into a row), and then, entry by
  entry, exp((0 − √(max(|a_p|² + |b_q|² − 2⟨a_p, b_q⟩, 0))) / 256) · c. Zero minus the root is the negated root, so the entry
  is the specification's scalar map of the three statistics. Region 2 adds the block's lane sums to its accumulator
  column; region 3 divides the block by the column of row sums plus the small constant.
-/
import proofs.«104530_j2594160247416_1_alg».proof.Proof.Gen.KernelIdeal.Skeleton
import proofs.«104530_j2594160247416_1_alg».proof.Proof.Spec
import proofs.«104530_j2594160247416_1_alg».proof.Proof.LibKeepdims
import proofs.«104530_j2594160247416_1_alg».proof.Proof.LibMatmulRead
import proofs.«104530_j2594160247416_1_alg».proof.Proof.Pay0
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

open scoped BigOperators

namespace Cert.Gram.Pay

open Idealize.ShloMosaic Idealize.SL.Sem Idealize.ShloMosaic.ValueIdx
open Cert.KernelIdeal Cert.KernelIdeal.Gen

/-- The 512 × 512 block of kernel entries as regions 2 and 3 both compute it from a block `a` of rows of the first
    product and a block `b` of rows of the second: the cross products by a matrix product against the transposed second
    block, the squared norms by lane sums (the second block's turned into a row), then the scalar map entry by entry. -/
def kBlock (v4 v6 : FVec Ideal S512x256 .f32) : FVec Ideal S512x512 .f32 :=
  have v7 : FVec Ideal S512x256 .bf16 := truncf .bf16 v4 bitsLt_bf16_f32
  have v8 : FVec Ideal S512x256 .bf16 := truncf .bf16 v6 bitsLt_bf16_f32
  have v9 : FVec Ideal S256x512 .bf16 := transpose S256x512 [1, 0] v8 transposes_S512x256_p1_0_S256x512
  have cst : FVec Ideal S512x512 .f32 := constant S512x512 .f32 0x00000000#32
  have v10 : FVec Ideal S512x512 .f32 := matmul dot_S512x256_S256x512_S512x512_1_0_0_1_n_n none v7 v9 cst
  have v11 : FVec Ideal S512x256 .f32 := mulf v4 v4
  have v12 : FVec Ideal S512 .f32 := multiReduction .add [1] S512 v11 0x00000000#32 reduces_S512x256_S512 (.inl rfl) rfl
  have v13 : FVec Ideal S512x1 .f32 := shapeCast S512x1 v12 shapeCasts_S512_S512x1
  have v14 : FVec Ideal S512x256 .f32 := mulf v6 v6
  have v15 : FVec Ideal S512 .f32 := multiReduction .add [1] S512 v14 0x00000000#32 reduces_S512x256_S512 (.inl rfl) rfl
  have v16 : FVec Ideal S512x1 .f32 := shapeCast S512x1 v15 shapeCasts_S512_S512x1
  have v17 : FVec Ideal S1x512 .f32 := transpose S1x512 [1, 0] v16 transposes_S512x1_p1_0_S1x512
  have v18 : FVec Ideal S512x512 .f32 := broadcastTo S512x512 v13 broadcasts_S512x1_S512x512
  have v19 : FVec Ideal S512x512 .f32 := broadcastTo S512x512 v17 broadcasts_S1x512_S512x512
  have v20 : FVec Ideal S512x512 .f32 := addf v18 v19
  have cst_6 : Ideal .f32 := Scalar.ofBits .f32 0x40000000#32
  have v21 : FVec Ideal S512x512 .f32 := broadcast S512x512 cst_6
  have v22 : FVec Ideal S512x512 .f32 := mulf v21 v10
  have v23 : FVec Ideal S512x512 .f32 := subf v20 v22
  have cst_7 : Ideal .f32 := Scalar.ofBits .f32 0x00000000#32
  have v24 : FVec Ideal S512x512 .f32 := broadcast S512x512 cst_7
  have v25 : FVec Ideal S512x512 .f32 := maximumf v23 v24
  have v26 : FVec Ideal S512x512 .f32 := sqrt v25
  have cst_8 : Ideal .f32 := Scalar.ofBits .f32 0x00000000#32
  have v27 : FVec Ideal S512x512 .f32 := broadcast S512x512 cst_8
  have v28 : FVec Ideal S512x512 .f32 := subf v27 v26
  have cst_9 : Ideal .f32 := Scalar.ofBits .f32 0x43800000#32
  have v29 : FVec Ideal S512x512 .f32 := broadcast S512x512 cst_9
  have v30 : FVec Ideal S512x512 .f32 := divf v28 v29
  have v31 : FVec Ideal S512x512 .f32 := exp v30
  have cst_10 : Ideal .f32 := Scalar.ofBits .f32 0x3ECC422A#32
  have v32 : FVec Ideal S512x512 .f32 := broadcast S512x512 cst_10
  have v33 : FVec Ideal S512x512 .f32 := mulf v31 v32
  v33

/-- The cross products contract the first block's columns with the transposed second block's rows. -/
theorem rowsByCols_cross : MatmulRead.RowsByCols dot_S512x256_S256x512_S512x512_1_0_0_1_n_n :=
  ⟨rfl, rfl, rfl, rfl, rfl, rfl⟩

/-- Zero minus a value is its negation: the zero word is the number zero. -/
theorem zeroWord_sub (s : EReal) : Ideal.ofBits .f32 0x00000000#32 - s = -s := by
  rw [Ideal.ofBits_zero_f32, zero_sub]

/-- The scalar map as the programs spell it — zero minus the root where the specification negates it — is the
    specification's map of the same three statistics. -/
theorem kOf_of_parts {A B C ysq xsq cross : EReal} (hA : A = ysq) (hB : B = xsq) (hC : C = cross) :
    Ideal.exp (Ideal.div (Ideal.ofBits .f32 0x00000000#32
        - Ideal.sqrt (max ((A + B) - Ideal.ofBits .f32 0x40000000#32 * C) (Ideal.ofBits .f32 0x00000000#32)))
      (Ideal.ofBits .f32 0x43800000#32)) * Ideal.ofBits .f32 0x3ECC422A#32 = kOf ysq xsq cross := by
  subst hA hB hC
  unfold kOf
  refine congrArg (fun t => Ideal.exp (Ideal.div t c256) * cGauss) ?_
  exact zeroWord_sub _

/-- Entry (p, q) of the block of kernel entries: the scalar map of the squared norm of row p of the first block, the
    squared norm of row q of the second, and their inner product. -/
theorem kBlock_apply (a b : FVec Ideal S512x256 .f32) (p q : Fin 512) :
    kBlock a b (ix2 p q)
      = kOf (∑ k : Fin 256, a (ix2 p k) * a (ix2 p k)) (∑ k : Fin 256, b (ix2 q k) * b (ix2 q k))
          (∑ k : Fin 256, a (ix2 p k) * b (ix2 q k)) := by
  unfold kBlock
  refine kOf_of_parts ?_ ?_ ?_
  · -- the first block's squared norms: a lane sum, made a column, repeated over the lanes
    refine (LibKeepdims.broadcastTo_a1_ab_apply _ _ p q).trans ?_
    refine (LibKeepdims.shapeCast_a_a1_apply _ _ p (0 : Fin 1)).trans ?_
    exact LibKeepdims.laneSum_apply (mulf a a) _ _ _ p
  · -- the second block's squared norms: a lane sum, made a column, turned into a row, repeated over the rows
    refine (broadcastTo_1b_ab_apply _ _ p q).trans ?_
    refine (transpose_ix2_apply _ _ (0 : Fin 1) q).trans ?_
    refine (LibKeepdims.shapeCast_a_a1_apply _ _ q (0 : Fin 1)).trans ?_
    exact LibKeepdims.laneSum_apply (mulf b b) _ _ _ q
  · -- the inner products: the product against the transposed second block, into a zero accumulator
    refine (MatmulRead.matmul_zero_ix2 rowsByCols_cross rfl rfl none _ _ p q).trans ?_
    refine Finset.sum_congr rfl fun k _ => congrArg (a (ix2 p k) * ·) ?_
    exact transpose_ix2_apply _ _ k q

/-- Region 3's stored block is the block of kernel entries divided, entry by entry, by the column of row sums plus the
    small constant, repeated over the lanes. -/
theorem k3_pay1_eq (v0 v2 : Vec Ideal S512x256 .f32) (v31 : Vec Ideal S512x1 .f32) :
    k3_pay1 (F := Ideal) v0 v2 v31
      = divf (kBlock (shapeCast S512x256 v0 shapeCasts_S512x256_S512x256) (shapeCast S512x256 v2 shapeCasts_S512x256_S512x256))
          (broadcastTo S512x512 (addf (shapeCast S512x1 v31 shapeCasts_S512x1_S512x1)
            (broadcast S512x1 (Scalar.ofBits (F := Ideal) .f32 0x358637BD#32))) broadcasts_S512x1_S512x512) := rfl

/-- Region 3's stored block, at (p, q): the kernel entry of row p of the first block and row q of the second, divided by
    row p's sum plus the small constant. -/
theorem pay3_apply (v0 v2 : Vec Ideal S512x256 .f32) (v31 : Vec Ideal S512x1 .f32) (p q : Fin 512) :
    k3_pay1 (F := Ideal) v0 v2 v31 (ix2 p q)
      = Ideal.div (kOf (∑ k : Fin 256, v0 (ix2 p k) * v0 (ix2 p k)) (∑ k : Fin 256, v2 (ix2 q k) * v2 (ix2 q k))
          (∑ k : Fin 256, v0 (ix2 p k) * v2 (ix2 q k))) (v31 (ix2 p (0 : Fin 1)) + cEps) := by
  rw [k3_pay1_eq, shapeCast_self v0, shapeCast_self v2, shapeCast_self v31]
  refine congrArg₂ Ideal.div (kBlock_apply v0 v2 p q) ?_
  exact LibKeepdims.broadcastTo_a1_ab_apply _ _ p q

/-- Region 2's new accumulator is the old one plus the column of lane sums of the block of kernel entries. -/
theorem k2_pay3_eq (v3 v5 : Vec Ideal S512x256 .f32) (v34 : Vec Ideal S512x1 .f32) :
    k2_pay3 (F := Ideal) v3 v5 v34
      = addf v34 (shapeCast S512x1 (multiReduction .add [1] S512
          (kBlock (shapeCast S512x256 v3 shapeCasts_S512x256_S512x256) (shapeCast S512x256 v5 shapeCasts_S512x256_S512x256))
          0x00000000#32 reduces_S512x512_S512 (.inl rfl) rfl) shapeCasts_S512_S512x1) := rfl

/-- Region 2's new accumulator, at row p: the old entry plus the sum over the block's 512 columns of the kernel entries
    of row p of the first block against each row of the second. -/
theorem pay2_acc (v3 v5 : Vec Ideal S512x256 .f32) (v34 : Vec Ideal S512x1 .f32) (p : Fin 512) (u : Fin 1) :
    k2_pay3 (F := Ideal) v3 v5 v34 (ix2 p u)
      = v34 (ix2 p u) + ∑ q : Fin 512, kOf (∑ k : Fin 256, v3 (ix2 p k) * v3 (ix2 p k))
          (∑ k : Fin 256, v5 (ix2 q k) * v5 (ix2 q k)) (∑ k : Fin 256, v3 (ix2 p k) * v5 (ix2 q k)) := by
  rw [k2_pay3_eq, shapeCast_self v3, shapeCast_self v5]
  refine congrArg (v34 (ix2 p u) + ·) ?_
  refine (LibKeepdims.shapeCast_a_a1_apply _ _ p u).trans ?_
  refine (LibKeepdims.laneSum_apply (kBlock v3 v5) _ _ _ p).trans ?_
  exact Finset.sum_congr rfl fun q _ => kBlock_apply v3 v5 p q

end Cert.Gram.Pay

end
-- ==== Proof.LibBlockSum.lean ====
/-
  Sums over a range cut into equal blocks, and the running sum of the block sums.

  A sum over the a · b indices below a · b is the sum over the a blocks of the sum inside each block: the index
  b · j + r, with j the block and r the place inside it, runs once over every index (division with remainder by b).
  A running sum that starts by adding the first term to zero and then adds each next term is, after n steps, the sum
  of the first n + 1 terms. Together: accumulating the block sums block by block gives the whole sum.
-/
import Mathlib.Algebra.BigOperators.Fin
import Mathlib.Logic.Equiv.Fin.Basic

open scoped BigOperators

namespace Cert.LibBlockSum

variable {M : Type*} [AddCommMonoid M]

/-- The place r of block j lies below a · b. -/
theorem blk_lt {a b : ℕ} (j : Fin a) (r : Fin b) : b * j.val + r.val < a * b :=
  calc b * j.val + r.val < b * j.val + b := Nat.add_lt_add_left r.isLt _
    _ = b * (j.val + 1) := (Nat.mul_succ _ _).symm
    _ ≤ b * a := Nat.mul_le_mul_left _ j.isLt
    _ = a * b := Nat.mul_comm _ _

/-- A sum over a · b indices is the sum over the a blocks of the sum over the b places of a block; place r of
    block j is the index b · j + r. -/
theorem sum_blocks (a b : ℕ) (f : Fin (a * b) → M) :
    ∑ q : Fin (a * b), f q = ∑ j : Fin a, ∑ r : Fin b, f ⟨b * j.val + r.val, blk_lt j r⟩ := by
  rw [← (finProdFinEquiv (m := a) (n := b)).sum_comp f, Fintype.sum_prod_type]
  exact Finset.sum_congr rfl fun j _ => Finset.sum_congr rfl fun r _ =>
    congrArg f (Fin.ext (Nat.add_comm _ _))

/-- The 8192 indices as 16 blocks of 512: place r of block j is the index 512 · j + r. -/
theorem sum_8192 (f : Fin 8192 → M) :
    ∑ q : Fin 8192, f q = ∑ j : Fin 16, ∑ r : Fin 512, f ⟨512 * j.val + r.val, by omega⟩ :=
  sum_blocks 16 512 f

/-- The running sum of a sequence: the first term is added to zero, every later term to the sum so far. -/
def run (g : ℕ → M) : ℕ → M
  | 0 => 0 + g 0
  | n + 1 => run g n + g (n + 1)

/-- After n steps the running sum is the sum of the terms 0, …, n. -/
theorem run_eq_sum_range (g : ℕ → M) (n : ℕ) : run g n = ∑ j ∈ Finset.range (n + 1), g j := by
  induction n with
  | zero => rw [run, zero_add, Finset.sum_range_one]
  | succ n ih => rw [run, ih, Finset.sum_range_succ g (n + 1)]

/-- After 15 steps the running sum is the sum of all 16 terms. -/
theorem run_15 (g : ℕ → M) : run g 15 = ∑ j : Fin 16, g j.val := by
  rw [run_eq_sum_range, Finset.sum_range]

end Cert.LibBlockSum
-- ==== Proof.KIVal2.lean ====
/-
  The value of the row-sum kernel as a region of the program, on the extended reals: the array of row sums.

  The grid is 16 × 16, row-major: point t works on block row t / 16 of the first product (512 rows of y · l) against
  block column t % 16 of the second (512 rows of x · l). Each case of the body leaves the accumulator at the body's sum
  value of the two blocks and of what the accumulator held (the zero column in the first column). Read at a row, that
  adds the row's block sum — the sum over the block's 512 columns of the kernel entries — to the accumulator; so, by
  induction on the position, after point n the accumulator holds the block sums of the columns 0, …, n % 16 of its
  rows. A point of the last column copies it to the output block, which is written back there: the block of the sums of
  rows 512 · (t / 16) + p over all 16 × 512 = 8192 columns. The last points of the 16 block rows cover the array.
-/
import proofs.«104530_j2594160247416_1_alg».proof.Proof.KIVal2P
import proofs.«104530_j2594160247416_1_alg».proof.Proof.Pay
import proofs.«104530_j2594160247416_1_alg».proof.Proof.Spec
import proofs.«104530_j2594160247416_1_alg».proof.Proof.LibBlockSum
import Idealize.ShloMosaic.Lib.ValueIdx
import Idealize.ShloMosaic.Lib.Pipeline.Value
import Idealize.ShloMosaic.Lib.Tactic

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.Tactic Idealize.SL.Sem
open Idealize.ShloMosaic.ValueIdx
open Idealize.ShloMosaic.Pipeline (Dat)
open Cert.Gram (kE kOf sqE crossE rowsumE)

section Generic

variable {F : FTy → Type} [FloatOps F]
variable (V : (c : Dev nD) → (b : Ref sig .tc) → Buf (Elt F) ((c : Thread nD τ).loc b))

/-- What the accumulator was before point t's body, when t is not in the first column: what the point before left. -/
abbrev prevAcc (c : Dev nD) (t : Fin cfg2.N) : Vec F S512x1 .f32 :=
  (outsAt2 V c (t.val - 1) (Nat.lt_of_le_of_lt (Nat.sub_le _ _) t.isLt)).2

/-- After a point of the first column the accumulator is the body's sum value over the zero column. -/
theorem acc_A (c : Dev nD) (t : Fin cfg2.N) (h0 : t.val % 16 = 0) (h1 : ¬t.val % 16 = 15) :
    (outsAt2 V c t.val t.isLt).2 = k2_pay1 (k2_pay3 (iblk2 V c 0 t) (iblk2 V c 1 t) (k2_pay2 (F := F))) :=
  (congrArg Prod.snd (outsAt2_A V c t h0 h1)).trans
    (sout2_A_0_eq c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t))

/-- After a point of a middle column: the body's sum value over what the point before left. -/
theorem acc_B (c : Dev nD) (t : Fin cfg2.N) (h0 : ¬t.val % 16 = 0) (h1 : ¬t.val % 16 = 15) :
    (outsAt2 V c t.val t.isLt).2 = k2_pay1 (k2_pay3 (iblk2 V c 0 t) (iblk2 V c 1 t) (prevAcc V c t)) :=
  (congrArg Prod.snd (outsAt2_B V c t h0 h1)).trans
    (sout2_B_0_eq c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (prevAcc V c t))

/-- After a point of the last column: the same, -/
theorem acc_C (c : Dev nD) (t : Fin cfg2.N) (h0 : ¬t.val % 16 = 0) (h1 : t.val % 16 = 15) :
    (outsAt2 V c t.val t.isLt).2 = k2_pay1 (k2_pay3 (iblk2 V c 0 t) (iblk2 V c 1 t) (prevAcc V c t)) :=
  (congrArg Prod.snd (outsAt2_C V c t h0 h1)).trans
    (sout2_C_0_eq c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (prevAcc V c t))

/-- and the output block's staging buffer holds a copy of it. -/
theorem out_C (c : Dev nD) (t : Fin cfg2.N) (h0 : ¬t.val % 16 = 0) (h1 : t.val % 16 = 15) :
    (outsAt2 V c t.val t.isLt).1 = (outsAt2 V c t.val t.isLt).2 :=
  ((congrArg Prod.fst (outsAt2_C V c t h0 h1)).trans
    (out2_C_2_eq c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (prevAcc V c t))).trans
    (acc_C V c t h0 h1).symm

end Generic

/-! ## At the exact values -/

variable (V : (c : Dev nD) → (b : Ref sig .tc) → Buf (Elt Ideal) ((c : Thread nD τ).loc b))

/-- Row p of the R-th block of 512 rows, among the 8192 rows (R below 16). -/
def rowIx (R : ℕ) (p : Fin 512) : Fin 8192 := ⟨(512 * R + p.val) % 8192, Nat.mod_lt _ (by decide)⟩

theorem rowIx_val {R : ℕ} (hR : R < 16) (p : Fin 512) : (rowIx R p).val = 512 * R + p.val :=
  Nat.mod_eq_of_lt (by have := p.isLt; omega)

/-- The printed index maps over the grid: the first window and the output move with the block row, the second window
    with the block column. -/
theorem idx_facts : ∀ t : Fin cfg2.N, win2_0.index t (0 : Fin 2) = t.val / 16 ∧ win2_0.index t (1 : Fin 2) = 0
    ∧ win2_1.index t (0 : Fin 2) = t.val % 16 ∧ win2_1.index t (1 : Fin 2) = 0
    ∧ win2_2.index t (0 : Fin 2) = t.val / 16 ∧ win2_2.index t (1 : Fin 2) = 0 :=
  (by decide +kernel : ∀ t : Fin grid2.N, _)

theorem lt_256 (t : Fin cfg2.N) : t.val < 256 := lt_of_lt_of_eq t.isLt (show cfg2.N = 256 from N_2)

/-- The first window's block at point t is the block row's 512 rows of the first product. -/
theorem iblk2_0_apply (c : Dev nD) (t : Fin cfg2.N) (p : Fin 512) (k : Fin 256) :
    iblk2 V c 0 t (ix2 p k) = V c main_v1 (ix2 (rowIx (t.val / 16) p) k) := by
  obtain ⟨e0, e1, -, -, -, -⟩ := idx_facts t
  have hN := lt_256 t
  unfold iblk2
  rw [View.read_apply]
  show V c main_v1 (((cfg2.win 0).blk t).view.emb (ix2 p k)) = _
  refine congrArg (V c main_v1) (funext fun a => Fin.ext ?_)
  match a with
  | ⟨0, _⟩ =>
    show win2_0.index t (0 : Fin 2) * 512 + 1 * p.val = (512 * (t.val / 16) + p.val) % 8192
    rw [e0]; have := p.isLt; omega
  | ⟨1, _⟩ =>
    show win2_0.index t (1 : Fin 2) * 256 + 1 * k.val = k.val
    rw [e1]; omega

/-- The second window's block at point t is the block column's 512 rows of the second product. -/
theorem iblk2_1_apply (c : Dev nD) (t : Fin cfg2.N) (q : Fin 512) (k : Fin 256) :
    iblk2 V c 1 t (ix2 q k) = V c main_v0 (ix2 (rowIx (t.val % 16) q) k) := by
  obtain ⟨-, -, e0, e1, -, -⟩ := idx_facts t
  have hN := lt_256 t
  unfold iblk2
  rw [View.read_apply]
  show V c main_v0 (((cfg2.win 1).blk t).view.emb (ix2 q k)) = _
  refine congrArg (V c main_v0) (funext fun a => Fin.ext ?_)
  match a with
  | ⟨0, _⟩ =>
    show win2_1.index t (0 : Fin 2) * 512 + 1 * q.val = (512 * (t.val % 16) + q.val) % 8192
    rw [e0]; have := q.isLt; omega
  | ⟨1, _⟩ =>
    show win2_1.index t (1 : Fin 2) * 256 + 1 * k.val = k.val
    rw [e1]; omega

/-- The sum of row P of the kernel matrix over the 512 columns of block j. -/
def blockSum (yl xl : FVec Ideal Cert.Gram.SA .f32) (P : Fin 8192) (j : ℕ) : EReal :=
  ∑ q : Fin 512, kE yl xl P (rowIx j q)

/-- One point's body adds to the accumulator, at row p, the block sum of the point's block column. -/
theorem step (c : Dev nD) (t : Fin cfg2.N) (xs0 : Vec Ideal S512x1 .f32) (p : Fin 512) :
    k2_pay1 (F := Ideal) (k2_pay3 (iblk2 V c 0 t) (iblk2 V c 1 t) xs0) (ix2 p (0 : Fin 1))
      = xs0 (ix2 p (0 : Fin 1)) + blockSum (V c main_v1) (V c main_v0) (rowIx (t.val / 16) p) (t.val % 16) := by
  rw [Cert.Gram.Pay.pay2_cast]
  refine (Cert.Gram.Pay.pay2_acc (iblk2 V c 0 t) (iblk2 V c 1 t) xs0 p (0 : Fin 1)).trans ?_
  refine congrArg (xs0 (ix2 p (0 : Fin 1)) + ·) ?_
  refine Finset.sum_congr rfl fun q _ => ?_
  simp only [iblk2_0_apply V c t, iblk2_1_apply V c t]
  rfl

/-- THE INVARIANT: after the point at position n the accumulator holds, at row p, the block sums of the block columns
    0, …, n % 16 of row 512 · (n / 16) + p of the kernel matrix — by induction on the position. -/
theorem acc_eq (c : Dev nD) : ∀ (n : ℕ) (hn : n < cfg2.N) (p : Fin 512),
    (outsAt2 V c n hn).2 (ix2 p (0 : Fin 1))
      = ∑ j ∈ Finset.range (n % 16 + 1), blockSum (V c main_v1) (V c main_v0) (rowIx (n / 16) p) j
  | 0, hn, p => by
    refine (congrFun (acc_A V c ⟨0, hn⟩ (Nat.zero_mod _) (show ¬(0 % 16 = 15) from by decide)) (ix2 p (0 : Fin 1))).trans ?_
    rw [step V c ⟨0, hn⟩ _ p, Cert.Gram.Pay.pay2_zero, zero_add]
    exact (Finset.sum_range_one _).symm
  | n + 1, hn, p => by
    by_cases h0 : (n + 1) % 16 = 0
    · have h1 : ¬(n + 1) % 16 = 15 := by omega
      refine (congrFun (acc_A V c ⟨n + 1, hn⟩ h0 h1) (ix2 p (0 : Fin 1))).trans ?_
      rw [step V c ⟨n + 1, hn⟩ _ p, Cert.Gram.Pay.pay2_zero, zero_add]
      show blockSum _ _ (rowIx ((n + 1) / 16) p) ((n + 1) % 16) = _
      rw [h0]
      exact (Finset.sum_range_one _).symm
    · have ih := acc_eq c n (Nat.lt_of_succ_lt hn) p
      have e1 : (n + 1) / 16 = n / 16 := by omega
      have e2 : (n + 1) % 16 = n % 16 + 1 := by omega
      have hacc : (outsAt2 V c (n + 1) hn).2
          = k2_pay1 (k2_pay3 (iblk2 V c 0 ⟨n + 1, hn⟩) (iblk2 V c 1 ⟨n + 1, hn⟩) (prevAcc V c ⟨n + 1, hn⟩)) := by
        by_cases h1 : (n + 1) % 16 = 15
        · exact acc_C V c ⟨n + 1, hn⟩ h0 h1
        · exact acc_B V c ⟨n + 1, hn⟩ h0 h1
      refine (congrFun hacc (ix2 p (0 : Fin 1))).trans ?_
      rw [step V c ⟨n + 1, hn⟩ _ p]
      show (outsAt2 V c n _).2 (ix2 p (0 : Fin 1)) + blockSum _ _ (rowIx ((n + 1) / 16) p) ((n + 1) % 16) = _
      rw [ih, e1, e2, Finset.sum_range_succ _ (n % 16 + 1)]

/-- The 16 block sums of a row make its sum over all 8192 columns. -/
theorem rowsum_blocks (yl xl : FVec Ideal Cert.Gram.SA .f32) (P : Fin 8192) :
    ∑ j ∈ Finset.range 16, blockSum yl xl P j = rowsumE yl xl P := by
  unfold rowsumE
  rw [Cert.LibBlockSum.sum_8192 (fun q => kE yl xl P q), Finset.sum_range]
  refine Finset.sum_congr rfl fun j _ => ?_
  unfold blockSum
  exact Finset.sum_congr rfl fun r _ => congrArg (kE yl xl P) (Fin.ext (rowIx_val j.isLt r))

/-- An index of the array of row sums is in point t's block iff each coordinate is in the block's range. -/
theorem mem_blk2 (t : Fin cfg2.N) (i : S8192x1.Idx) :
    i ∈ ((cfg2.win 2).blk t).view.set ↔ ∀ a : Fin 2, win2_2.index t a * S512x1.size a ≤ (i a).val ∧ (i a).val < win2_2.index t a * S512x1.size a + S512x1.size a := by
  show i ∈ ((View.whole main_v2).slice (win2_2.rect t)).set ↔ _
  rw [View.set_slice_whole, Rect.mem_set_unit]
  exact Iff.rfl

/-- WHAT A POINT OF THE LAST COLUMN WRITES BACK is its block of the row sums of the kernel matrix. -/
theorem flushed2_eq (c : Dev nD) (t : Fin cfg2.N) (hf : (cfg2.win 2).flush t = true) :
    (dat2 V c).flushed 2 t
      = ((cfg2.win 2).blk t).view.read (Elt Ideal) (fun i => rowsumE (V c main_v1) (V c main_v0) (i 0)) := by
  have h15 : t.val % 16 = 15 := (flush2_2 t).mp hf
  have h0 : ¬t.val % 16 = 0 := by omega
  obtain ⟨-, -, -, -, e0, e1⟩ := idx_facts t
  have hN := lt_256 t
  show (cfg2.win 2).cut (grid2.coords t) ((dat2 V c).after 2 t) = _
  rw [after2_2, out_C V c t h0 h15]
  funext j
  obtain ⟨p, u, rfl⟩ : ∃ (p : Fin 512) (u : Fin 1), j = ix2 p u := ⟨j 0, j 1, eq_ix2 j⟩
  obtain rfl : u = 0 := Subsingleton.elim _ _
  have hP : ((((cfg2.win 2).blk t).view.emb (ix2 p (0 : Fin 1))) 0 : Fin 8192) = rowIx (t.val / 16) p := Fin.ext (by
    show win2_2.index t (0 : Fin 2) * 512 + 1 * p.val = (512 * (t.val / 16) + p.val) % 8192
    rw [e0]; have := p.isLt; omega)
  show (outsAt2 V c t.val t.isLt).2 (ix2 p (0 : Fin 1))
    = rowsumE (V c main_v1) (V c main_v0) ((((cfg2.win 2).blk t).view.emb (ix2 p (0 : Fin 1))) 0)
  refine (acc_eq V c t.val t.isLt p).trans ?_
  rw [h15]
  exact (rowsum_blocks _ _ _).trans (congrArg (rowsumE (V c main_v1) (V c main_v0)) hP.symm)

/-- Every row of the array is in the block of the last point of its block row. -/
theorem cover2 (i : S8192x1.Idx) : ∃ t : Fin cfg2.N, (cfg2.win 2).flush t = true ∧ i ∈ ((cfg2.win 2).blk t).view.set := by
  have hi0 : (i 0).val < 8192 := (i 0).isLt
  have hi1 : (i 1).val < 1 := (i 1).isLt
  have hN : cfg2.N = 256 := N_2
  have ht : 16 * ((i 0).val / 512) + 15 < cfg2.N := by omega
  obtain ⟨-, -, -, -, e0, e1⟩ := idx_facts ⟨16 * ((i 0).val / 512) + 15, ht⟩
  refine ⟨⟨16 * ((i 0).val / 512) + 15, ht⟩, (flush2_2 _).mpr (by show (16 * ((i 0).val / 512) + 15) % 16 = 15; omega), ?_⟩
  rw [mem_blk2]
  intro a
  match a with
  | ⟨0, _⟩ =>
    show win2_2.index ⟨16 * ((i 0).val / 512) + 15, ht⟩ (0 : Fin 2) * 512 ≤ (i 0).val
      ∧ (i 0).val < win2_2.index ⟨16 * ((i 0).val / 512) + 15, ht⟩ (0 : Fin 2) * 512 + 512
    rw [e0]; show (16 * ((i 0).val / 512) + 15) / 16 * 512 ≤ _ ∧ _ < (16 * ((i 0).val / 512) + 15) / 16 * 512 + 512; omega
  | ⟨1, _⟩ =>
    show win2_2.index ⟨16 * ((i 0).val / 512) + 15, ht⟩ (1 : Fin 2) * 1 ≤ (i 1).val
      ∧ (i 1).val < win2_2.index ⟨16 * ((i 0).val / 512) + 15, ht⟩ (1 : Fin 2) * 1 + 1
    rw [e1]; omega

/-- THE ARRAY OF ROW SUMS after the region: row r holds the sum of row r of the kernel matrix over all columns. -/
theorem final2 (c : Dev nD) :
    (dat2 (F := Ideal) V c).arrAt 2 cfg2.N = fun i => rowsumE (V c main_v1) (V c main_v0) (i 0) :=
  (dat2 V c).arrAt_eq_of_cover 2 _ (flushed2_eq V c) cover2

end Cert.KernelIdeal.Val

end
-- ==== Proof.KIVal3.lean ====
/-
  Region 3, from blocks to the array, on the extended reals.

  The region's 16 × 16 grid points, row-major, each stage a block of 512 rows of the first product (by the point's row),
  a block of 512 rows of the second product (by the point's column) and the matching 512 entries of the column of row
  sums (by the point's row), and write back a 512 × 512 block: entry (p, q) is the unnormalised entry of row p of the
  first block against row q of the second, divided by row p's sum plus the small constant. Row p of the blocks staged
  at point t is row 512 · (t / 16) + p of the arrays and column q is row 512 · (t % 16) + q, so what point t writes back
  is its block of one function of the whole arrays; the 256 blocks tile the 8192 × 8192 result.
-/
import proofs.«104530_j2594160247416_1_alg».proof.Proof.KIFrame3
import proofs.«104530_j2594160247416_1_alg».proof.Proof.Pay
import Idealize.ShloMosaic.Lib.Pipeline.Value

noncomputable section

open scoped BigOperators

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The normalised entry (p, q) from the two products and the column of row sums: the unnormalised entry divided by
    row p's sum plus the small constant. -/
def G3 (yl xl : FVec Ideal Cert.Gram.SA .f32) (rs : FVec Ideal S8192x1 .f32) : FVec Ideal Cert.Gram.SO .f32 :=
  fun i => Ideal.div (Cert.Gram.kE yl xl (i 0) (i 1)) (rs (ix2 (i 0) (0 : Fin 1)) + Cert.Gram.cEps)

theorem G3_ix2 (yl xl : FVec Ideal Cert.Gram.SA .f32) (rs : FVec Ideal S8192x1 .f32) (p q : Fin 8192) :
    G3 yl xl rs (ix2 p q) = Ideal.div (Cert.Gram.kE yl xl p q) (rs (ix2 p (0 : Fin 1)) + Cert.Gram.cEps) := rfl

/-- The printed index maps over the 16 × 16 points, row-major: the rows of the first product and of the row sums move
    with the output's row block, the rows of the second product with the output's column block; point t has row block
    t / 16 and column block t % 16. -/
theorem idx_facts3 : ∀ t : Fin cfg3.N, win3_0.index t (0 : Fin 2) = win3_3.index t (0 : Fin 2)
    ∧ win3_0.index t (1 : Fin 2) = 0
    ∧ win3_1.index t (0 : Fin 2) = win3_3.index t (1 : Fin 2)
    ∧ win3_1.index t (1 : Fin 2) = 0
    ∧ win3_2.index t (0 : Fin 2) = win3_3.index t (0 : Fin 2)
    ∧ win3_2.index t (1 : Fin 2) = 0
    ∧ win3_3.index t (0 : Fin 2) = t.val / 16
    ∧ win3_3.index t (1 : Fin 2) = t.val % 16 :=
  (by decide +kernel : ∀ t : Fin grid3.N, _)

/-- What point t writes back is its 512 × 512 block of the normalised entries of the whole arrays: row p of the block
    is row 512 · (t / 16) + p of the first product and of the row sums, column q is row 512 · (t % 16) + q of the second
    product. -/
theorem flushed3_eq (c : Dev nD) (t : Fin cfg3.N) :
    (dat3 (F := Ideal) V c).flushed 3 t = ((cfg3.win 3).blk t).view.read (Elt Ideal) (G3 (V c main_v1) (V c main_v0) (V c main_v2)) := by
  show (cfg3.win 3).cut (grid3.coords t) ((dat3 V c).after 3 t) = _
  rw [after3_3]
  unfold out3_3
  rw [View.canon_unit_zero hz3]
  simp only [View.ld_unit_zero (S := S512x256) hz3, View.ld_unit_zero (S := S512x1) hz3]
  funext j
  obtain ⟨p, q, rfl⟩ : ∃ (p q : Fin 512), j = ix2 p q := ⟨j 0, j 1, eq_ix2 (n0 := 512) (n1 := 512) j⟩
  obtain ⟨e0, e1, e2, e3, e4, e5, e6, e7⟩ := idx_facts3 t
  have ht : t.val < 256 := lt_of_lt_of_eq t.isLt N_3
  have hp : p.val < 512 := p.isLt
  have hq : q.val < 512 := q.isLt
  obtain ⟨P, hP⟩ : ∃ P : Fin 8192, P.val = win3_3.index t (0 : Fin 2) * 512 + p.val := ⟨⟨_, by omega⟩, rfl⟩
  obtain ⟨Q, hQ⟩ : ∃ Q : Fin 8192, Q.val = win3_3.index t (1 : Fin 2) * 512 + q.val := ⟨⟨_, by omega⟩, rfl⟩
  have hemb : ((cfg3.win 3).blk t).view.emb (ix2 p q) = ix2 P Q := by
    funext a; apply Fin.ext
    match a with
    | ⟨0, _⟩ => show win3_3.index t (0 : Fin 2) * 512 + 1 * p.val = P.val; omega
    | ⟨1, _⟩ => show win3_3.index t (1 : Fin 2) * 512 + 1 * q.val = Q.val; omega
  have h0 : ∀ k : Fin 256, iblk3 V c 0 t (ix2 p k) = V c main_v1 (ix2 P k) := fun k => by
    show V c main_v1 (((cfg3.win 0).blk t).view.emb (ix2 p k)) = _
    refine congrArg (V c main_v1) (funext fun a => Fin.ext ?_)
    match a with
    | ⟨0, _⟩ => show win3_0.index t (0 : Fin 2) * 512 + 1 * p.val = P.val; omega
    | ⟨1, _⟩ => show win3_0.index t (1 : Fin 2) * 256 + 1 * k.val = k.val; omega
  have h1 : ∀ k : Fin 256, iblk3 V c 1 t (ix2 q k) = V c main_v0 (ix2 Q k) := fun k => by
    show V c main_v0 (((cfg3.win 1).blk t).view.emb (ix2 q k)) = _
    refine congrArg (V c main_v0) (funext fun a => Fin.ext ?_)
    match a with
    | ⟨0, _⟩ => show win3_1.index t (0 : Fin 2) * 512 + 1 * q.val = Q.val; omega
    | ⟨1, _⟩ => show win3_1.index t (1 : Fin 2) * 256 + 1 * k.val = k.val; omega
  have h2 : iblk3 V c 2 t (ix2 p (0 : Fin 1)) = V c main_v2 (ix2 P (0 : Fin 1)) := by
    show V c main_v2 (((cfg3.win 2).blk t).view.emb (ix2 p (0 : Fin 1))) = _
    refine congrArg (V c main_v2) (funext fun a => Fin.ext ?_)
    match a with
    | ⟨0, _⟩ => show win3_2.index t (0 : Fin 2) * 512 + 1 * p.val = P.val; omega
    | ⟨1, _⟩ => show win3_2.index t (1 : Fin 2) * 1 + 1 * 0 = 0; omega
  show k3_pay1 (F := Ideal) (iblk3 V c 0 t) (iblk3 V c 1 t) (iblk3 V c 2 t) (ix2 p q)
    = G3 (V c main_v1) (V c main_v0) (V c main_v2) (((cfg3.win 3).blk t).view.emb (ix2 p q))
  refine (Cert.Gram.Pay.pay3_apply (iblk3 V c 0 t) (iblk3 V c 1 t) (iblk3 V c 2 t) p q).trans ?_
  refine Eq.trans ?_ (congrArg (G3 (V c main_v1) (V c main_v0) (V c main_v2)) hemb).symm
  rw [G3_ix2]
  unfold Cert.Gram.kE Cert.Gram.sqE Cert.Gram.crossE
  simp only [h0, h1, h2]

/-- An index of the array is in point t's block iff each coordinate is in the block's range on its axis. -/
theorem mem_blk3 (t : Fin cfg3.N) (i : S8192x8192.Idx) :
    i ∈ ((cfg3.win 3).blk t).view.set ↔ ∀ a : Fin 2, win3_3.index t a * S512x512.size a ≤ (i a).val ∧ (i a).val < win3_3.index t a * S512x512.size a + S512x512.size a := by
  show i ∈ ((View.whole main_v3).slice (win3_3.rect t)).set ↔ _
  rw [View.set_slice_whole, Rect.mem_set_unit]
  exact Iff.rfl

/-- Entry (r, s) lies in the block of the point 16 · (r / 512) + s / 512. -/
theorem cover3 (i : S8192x8192.Idx) : ∃ t : Fin cfg3.N, (cfg3.win 3).flush t = true ∧ i ∈ ((cfg3.win 3).blk t).view.set := by
  have hi0 : (i 0).val < 8192 := (i 0).isLt
  have hi1 : (i 1).val < 8192 := (i 1).isLt
  let t : Fin cfg3.N := ⟨16 * ((i 0).val / 512) + (i 1).val / 512, by rw [show cfg3.N = 256 from N_3]; omega⟩
  obtain ⟨e0, e1, e2, e3, e4, e5, e6, e7⟩ := idx_facts3 t
  have e6' : win3_3.index t (0 : Fin 2) = (16 * ((i 0).val / 512) + (i 1).val / 512) / 16 := e6
  have e7' : win3_3.index t (1 : Fin 2) = (16 * ((i 0).val / 512) + (i 1).val / 512) % 16 := e7
  refine ⟨t, flush3_3 t, ?_⟩
  rw [mem_blk3]
  intro a
  match a with
  | ⟨0, _⟩ => show win3_3.index t (0 : Fin 2) * 512 ≤ (i 0).val ∧ (i 0).val < win3_3.index t (0 : Fin 2) * 512 + 512; omega
  | ⟨1, _⟩ => show win3_3.index t (1 : Fin 2) * 512 ≤ (i 1).val ∧ (i 1).val < win3_3.index t (1 : Fin 2) * 512 + 512; omega

/-- After the 256 points the output array of region 3 holds, at (p, q), the unnormalised entry of row p of the first
    product against row q of the second, divided by the entry of the row-sum column at p plus the small constant. -/
theorem final3 (c : Dev nD) : (dat3 (F := Ideal) V c).arrAt 3 cfg3.N = G3 (V c main_v1) (V c main_v0) (V c main_v2) :=
  (dat3 (F := Ideal) V c).arrAt_eq_of_cover 3 (G3 (V c main_v1) (V c main_v0) (V c main_v2)) (fun t _ => flushed3_eq V c t) cover3

end Cert.KernelIdeal.Val

end
-- ==== Proof.KIVal.lean ====
/-
  The idealized kernel's result as one function of the three argument arrays.

  The four regions' final arrays, each a closed function of what the region found, are chained through the buffer
  contents at the region boundaries: region 0 leaves XL = x · l, region 1 leaves YL = y · l (both reading the
  arguments, which no region writes), region 2 leaves the row sums of the unnormalised kernel of (YL, XL), and region 3
  leaves each kernel entry divided by its row's sum plus the small constant - the specification's `G`.
-/
import proofs.«104530_j2594160247416_1_alg».proof.Proof.KIRun
import proofs.«104530_j2594160247416_1_alg».proof.Proof.KIVal0
import proofs.«104530_j2594160247416_1_alg».proof.Proof.KIVal1
import proofs.«104530_j2594160247416_1_alg».proof.Proof.KIVal2
import proofs.«104530_j2594160247416_1_alg».proof.Proof.KIVal3
import proofs.«104530_j2594160247416_1_alg».proof.Proof.Spec

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- XL, the first product, as the specification writes it. -/
abbrev XL (c : Dev nD) : FVec Ideal Cert.Gram.SA .f32 :=
  Cert.Gram.lin (m ((c.tc : Thread nD τ).loc main_arg0)) (m ((c.tc : Thread nD τ).loc main_arg2))
/-- YL, the second product. -/
abbrev YL (c : Dev nD) : FVec Ideal Cert.Gram.SA .f32 :=
  Cert.Gram.lin (m ((c.tc : Thread nD τ).loc main_arg1)) (m ((c.tc : Thread nD τ).loc main_arg2))

/-! ## After region 0 -/

theorem V1_arg1 (c : Dev nD) : V1 m ρ c main_arg1 = m ((c.tc : Thread nD τ).loc main_arg1) :=
  (W1_of_ne m ρ c main_arg1 (by decide)).trans rfl
theorem V1_arg2 (c : Dev nD) : V1 m ρ c main_arg2 = m ((c.tc : Thread nD τ).loc main_arg2) :=
  (W1_arr m ρ c 1).trans (((dat0 (V0 m ρ) c).arrAt_in 1 rfl _).trans ((A_eq0 (V0 m ρ) c 1).trans rfl))
theorem V1_v0 (c : Dev nD) : V1 m ρ c main_v0 = XL m c :=
  (W1_arr m ρ c 2).trans (final0 (V0 m ρ) c)

/-! ## After region 1 -/

theorem V2_v0 (c : Dev nD) : V2 m ρ c main_v0 = XL m c :=
  (W2_of_ne m ρ c main_v0 (by decide)).trans (V1_v0 m ρ c)
theorem V2_v1 (c : Dev nD) : V2 m ρ c main_v1 = YL m c :=
  (W2_arr m ρ c 2).trans ((final1 (V1 m ρ) c).trans (by rw [V1_arg1, V1_arg2]))

/-! ## After region 2 -/

theorem V3_v1 (c : Dev nD) : V3 m ρ c main_v1 = YL m c :=
  (W3_arr m ρ c 0).trans (((dat2 (V2 m ρ) c).arrAt_in 0 rfl _).trans ((A_eq2 (V2 m ρ) c 0).trans (V2_v1 m ρ c)))
theorem V3_v0 (c : Dev nD) : V3 m ρ c main_v0 = XL m c :=
  (W3_arr m ρ c 1).trans (((dat2 (V2 m ρ) c).arrAt_in 1 rfl _).trans ((A_eq2 (V2 m ρ) c 1).trans (V2_v0 m ρ c)))
theorem V3_v2 (c : Dev nD) : V3 m ρ c main_v2 = fun i => Cert.Gram.rowsumE (YL m c) (XL m c) (i 0) :=
  (W3_arr m ρ c 2).trans ((final2 (V2 m ρ) c).trans (by rw [V2_v1, V2_v0]))

/-! ## After region 3 -/

theorem V4_v3 (c : Dev nD) : V4 m ρ c main_v3
    = Cert.Gram.G (m ((c.tc : Thread nD τ).loc main_arg0)) (m ((c.tc : Thread nD τ).loc main_arg1)) (m ((c.tc : Thread nD τ).loc main_arg2)) :=
  (W4_arr m ρ c 3).trans ((final3 (V3 m ρ) c).trans (by
    rw [V3_v1, V3_v0, V3_v2]
    funext i
    obtain ⟨p, q, rfl⟩ : ∃ (p q : Fin 8192), i = ix2 p q := ⟨i 0, i 1, eq_ix2 i⟩
    rw [G3_ix2, Cert.Gram.G_ix2]
    rfl))

/-- Every weakly fair execution of the idealized kernel ends with its result array at the specification's function of
    the argument arrays, and the arguments as launched. -/
theorem run_G : θ_run defs (onTc (τ := τ) (main (F := Ideal))) ⟨m, fun _ => 0, ρ⟩ (fun r => ∀ c : Dev nD,
      r.2.mem ((c.tc : Thread nD τ).loc main_v3)
        = Cert.Gram.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun s h c =>
    ⟨(h c _ (mem_uc main_v3 (by decide))).trans (V4_v3 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all (F := Ideal) m ρ)

end Cert.KernelIdeal.Val

end
-- ==== Proof.RefG.lean ====
/-
  The reference program computes the specification's function.

  Read stage by stage, the reference forms XL = x · l and YL = y · l, the row sums of squares of each, the product of
  YL with the transpose of XL, and from these three statistics of a pair of rows (p, q) the scalar
  exp(−√(max((|YL_p|² + |XL_q|²) − 2 · ⟨YL_p, XL_q⟩, 0)) / 256) · c; it then sums each row over all columns, adds the small
  constant, and divides. Each stage is read at an index built from literal coordinates: a sum over the contracted axis
  for a product, a sum over the reduced axis (from the zero word, which is 0) for a row sum, the operand's entry in the
  same row or column for a broadcast, the swapped entry for the transpose, the scalar operation for a pointwise stage.
  Entry by entry the result is the specification's expression, with the same literal words, so none is evaluated
  except the zero a host sum starts from.
-/
import proofs.«104530_j2594160247416_1_alg».proof.Proof.Gen.ReferenceIdeal.Read
import proofs.«104530_j2594160247416_1_alg».proof.Proof.Spec

noncomputable section

open scoped BigOperators

namespace Cert.Gram.Ref

open Idealize.ShloMosaic Idealize.ShloMosaic.ValueIdx Idealize.ShloMosaic.TcCoe Idealize.SL.Sem Cert.ReferenceIdeal Cert.ReferenceIdeal.Read

/-- The reference's first product is x · l. -/
theorem v0_eq_lin (x0 : (⟨S8192x256, .f32⟩ : BufTy).Contents (Elt Ideal)) (x2 : (⟨S256x256, .f32⟩ : BufTy).Contents (Elt Ideal)) :
    val_main_v0 (F := Ideal) x0 x2 = Cert.Gram.lin x0 x2 := by
  funext i
  obtain ⟨p, c, rfl⟩ : ∃ (p : Fin 8192) (c : Fin 256), i = ix2 p c := ⟨i 0, i 1, eq_ix2 i⟩
  rw [val_main_v0_apply, Cert.Gram.lin_ix2]
  unfold Cert.Gram.linE
  refine Finset.sum_congr rfl fun k _ => ?_
  have el : lidx_main_v0 (ix2 p c) k = ix2 p k := funext fun a => match a with | ⟨0, _⟩ => rfl | ⟨1, _⟩ => rfl
  have er : ridx_main_v0 (ix2 p c) k = ix2 k c := funext fun a => match a with | ⟨0, _⟩ => rfl | ⟨1, _⟩ => rfl
  rw [el, er]

/-- The reference's second product is y · l. -/
theorem v1_eq_lin (x1 : (⟨S8192x256, .f32⟩ : BufTy).Contents (Elt Ideal)) (x2 : (⟨S256x256, .f32⟩ : BufTy).Contents (Elt Ideal)) :
    val_main_v1 (F := Ideal) x1 x2 = Cert.Gram.lin x1 x2 := by
  funext i
  obtain ⟨p, c, rfl⟩ : ∃ (p : Fin 8192) (c : Fin 256), i = ix2 p c := ⟨i 0, i 1, eq_ix2 i⟩
  rw [val_main_v1_apply, Cert.Gram.lin_ix2]
  unfold Cert.Gram.linE
  refine Finset.sum_congr rfl fun k _ => ?_
  have el : lidx_main_v1 (ix2 p c) k = ix2 p k := funext fun a => match a with | ⟨0, _⟩ => rfl | ⟨1, _⟩ => rfl
  have er : ridx_main_v1 (ix2 p c) k = ix2 k c := funext fun a => match a with | ⟨0, _⟩ => rfl | ⟨1, _⟩ => rfl
  rw [el, er]

/-- The row sums of squares of y · l: the host sum starts from the zero word, which is 0. -/
theorem v3_apply (x1 : (⟨S8192x256, .f32⟩ : BufTy).Contents (Elt Ideal)) (x2 : (⟨S256x256, .f32⟩ : BufTy).Contents (Elt Ideal)) (p : Fin 8192) :
    val_main_v3 (F := Ideal) x1 x2 (ix1 p) = Cert.Gram.sqE (Cert.Gram.lin x1 x2) p := by
  rw [val_main_v3_apply, val_main_cst_apply, Ideal.ofBits_def, Ideal.ofBits_zero_f32, zero_add]
  unfold Cert.Gram.sqE
  refine Finset.sum_congr rfl fun k _ => ?_
  have e : idx_main_v3 (ix1 p) k = ix2 p k := funext fun a => match a with | ⟨0, _⟩ => rfl | ⟨1, _⟩ => rfl
  rw [e, val_main_v2_apply, v1_eq_lin, Ideal.mulf_def]

/-- The row sums of squares of x · l. -/
theorem v6_apply (x0 : (⟨S8192x256, .f32⟩ : BufTy).Contents (Elt Ideal)) (x2 : (⟨S256x256, .f32⟩ : BufTy).Contents (Elt Ideal)) (q : Fin 8192) :
    val_main_v6 (F := Ideal) x0 x2 (ix1 q) = Cert.Gram.sqE (Cert.Gram.lin x0 x2) q := by
  rw [val_main_v6_apply, val_main_cst_0_apply, Ideal.ofBits_def, Ideal.ofBits_zero_f32, zero_add]
  unfold Cert.Gram.sqE
  refine Finset.sum_congr rfl fun k _ => ?_
  have e : idx_main_v6 (ix1 q) k = ix2 q k := funext fun a => match a with | ⟨0, _⟩ => rfl | ⟨1, _⟩ => rfl
  rw [e, val_main_v5_apply, v0_eq_lin, Ideal.mulf_def]

/-- The column of squared norms of y · l, repeated along every row of the square array. -/
theorem v8_apply (x1 : (⟨S8192x256, .f32⟩ : BufTy).Contents (Elt Ideal)) (x2 : (⟨S256x256, .f32⟩ : BufTy).Contents (Elt Ideal)) (p q : Fin 8192) :
    val_main_v8 (F := Ideal) x1 x2 (ix2 p q) = Cert.Gram.sqE (Cert.Gram.lin x1 x2) p := by
  have e8 : idx_main_v8 (ix2 p q) = ix2 p (0 : Fin 1) := funext fun a => match a with | ⟨0, _⟩ => rfl | ⟨1, _⟩ => rfl
  have e4 : idx_main_v4 (ix2 p (0 : Fin 1)) = ix1 p := funext fun a => match a with | ⟨0, _⟩ => rfl
  rw [val_main_v8_apply, e8, val_main_v4_apply, e4, v3_apply]

/-- The row of squared norms of x · l, repeated down every column of the square array. -/
theorem v9_apply (x0 : (⟨S8192x256, .f32⟩ : BufTy).Contents (Elt Ideal)) (x2 : (⟨S256x256, .f32⟩ : BufTy).Contents (Elt Ideal)) (p q : Fin 8192) :
    val_main_v9 (F := Ideal) x0 x2 (ix2 p q) = Cert.Gram.sqE (Cert.Gram.lin x0 x2) q := by
  have e9 : idx_main_v9 (ix2 p q) = ix2 (0 : Fin 1) q := funext fun a => match a with | ⟨0, _⟩ => rfl | ⟨1, _⟩ => rfl
  have e7 : idx_main_v7 (ix2 (0 : Fin 1) q) = ix1 q := funext fun a => match a with | ⟨0, _⟩ => rfl
  rw [val_main_v9_apply, e9, val_main_v7_apply, e7, v6_apply]

/-- The product of y · l with the transpose of x · l: entry (p, q) is the inner product of row p with row q. -/
theorem v12_apply (x0 x1 : (⟨S8192x256, .f32⟩ : BufTy).Contents (Elt Ideal)) (x2 : (⟨S256x256, .f32⟩ : BufTy).Contents (Elt Ideal)) (p q : Fin 8192) :
    val_main_v12 (F := Ideal) x0 x1 x2 (ix2 p q) = Cert.Gram.crossE (Cert.Gram.lin x1 x2) (Cert.Gram.lin x0 x2) p q := by
  rw [val_main_v12_apply]
  unfold Cert.Gram.crossE
  refine Finset.sum_congr rfl fun k _ => ?_
  have el : lidx_main_v12 (ix2 p q) k = ix2 p k := funext fun a => match a with | ⟨0, _⟩ => rfl | ⟨1, _⟩ => rfl
  have er : ridx_main_v12 (ix2 p q) k = ix2 k q := funext fun a => match a with | ⟨0, _⟩ => rfl | ⟨1, _⟩ => rfl
  have et : idx_main_v11 (ix2 k q) = ix2 q k := funext fun a => match a with | ⟨0, _⟩ => rfl | ⟨1, _⟩ => rfl
  rw [el, er, val_main_v11_apply, et, v1_eq_lin, v0_eq_lin]

/-- The unnormalised entry (p, q): the scalar chain from the three row statistics, literal by literal the
    specification's map. The host's negation is the negation of the extended reals. -/
theorem v24_apply (x0 x1 : (⟨S8192x256, .f32⟩ : BufTy).Contents (Elt Ideal)) (x2 : (⟨S256x256, .f32⟩ : BufTy).Contents (Elt Ideal)) (p q : Fin 8192) :
    val_main_v24 (F := Ideal) x0 x1 x2 (ix2 p q) = Cert.Gram.kE (Cert.Gram.lin x1 x2) (Cert.Gram.lin x0 x2) p q := by
  rw [val_main_v24_apply, val_main_v22_apply, val_main_v21_apply, val_main_v19_apply, val_main_v18_apply,
    val_main_v17_apply, val_main_v15_apply, val_main_v10_apply, val_main_v14_apply,
    val_main_v13_apply, val_main_cst_1_apply, val_main_v16_apply, val_main_cst_2_apply,
    val_main_v20_apply, val_main_cst_3_apply, val_main_v23_apply, val_main_cst_4_apply,
    v8_apply, v9_apply, v12_apply]
  simp only [Ideal.ofBits_def, Ideal.addf_def, Ideal.subf_def, Ideal.mulf_def, Ideal.maximumf_def,
    Ideal.hostUnary_sqrt_def, Ideal.hostUnary_exp_def, Ideal.hostNegf_def, Ideal.negf_def, Ideal.hostDivf_def]
  rfl

/-- The sum of row p of the unnormalised entries over all 8192 columns; the host sum starts from the zero word. -/
theorem v25_apply (x0 x1 : (⟨S8192x256, .f32⟩ : BufTy).Contents (Elt Ideal)) (x2 : (⟨S256x256, .f32⟩ : BufTy).Contents (Elt Ideal)) (p : Fin 8192) :
    val_main_v25 (F := Ideal) x0 x1 x2 (ix1 p) = Cert.Gram.rowsumE (Cert.Gram.lin x1 x2) (Cert.Gram.lin x0 x2) p := by
  rw [val_main_v25_apply, val_main_cst_5_apply, Ideal.ofBits_def, Ideal.ofBits_zero_f32, zero_add]
  unfold Cert.Gram.rowsumE
  refine Finset.sum_congr rfl fun k _ => ?_
  have e : idx_main_v25 (ix1 p) k = ix2 p k := funext fun a => match a with | ⟨0, _⟩ => rfl | ⟨1, _⟩ => rfl
  rw [e, v24_apply]

/-- The normaliser of row p, repeated along the row: the row sum plus the small constant. -/
theorem v29_apply (x0 x1 : (⟨S8192x256, .f32⟩ : BufTy).Contents (Elt Ideal)) (x2 : (⟨S256x256, .f32⟩ : BufTy).Contents (Elt Ideal)) (p q : Fin 8192) :
    val_main_v29 (F := Ideal) x0 x1 x2 (ix2 p q)
      = Cert.Gram.rowsumE (Cert.Gram.lin x1 x2) (Cert.Gram.lin x0 x2) p + Cert.Gram.cEps := by
  have e29 : idx_main_v29 (ix2 p q) = ix2 p (0 : Fin 1) := funext fun a => match a with | ⟨0, _⟩ => rfl | ⟨1, _⟩ => rfl
  have e26 : idx_main_v26 (ix2 p (0 : Fin 1)) = ix1 p := funext fun a => match a with | ⟨0, _⟩ => rfl
  rw [val_main_v29_apply, e29, val_main_v28_apply, val_main_v26_apply, e26, v25_apply,
    val_main_v27_apply, val_main_cst_6_apply, Ideal.ofBits_def, Ideal.addf_def]

/-- The reference computes the specification's function of its three arguments. -/
theorem val_eq_G (x0 x1 : (⟨Cert.ReferenceIdeal.S8192x256, .f32⟩ : BufTy).Contents (Elt Ideal)) (x2 : (⟨Cert.ReferenceIdeal.S256x256, .f32⟩ : BufTy).Contents (Elt Ideal)) :
    Cert.ReferenceIdeal.Read.val_main_v30 (F := Ideal) x0 x1 x2 = Cert.Gram.G x0 x1 x2 := by
  funext i
  obtain ⟨p, q, rfl⟩ : ∃ (p q : Fin 8192), i = ix2 p q := ⟨i 0, i 1, eq_ix2 i⟩
  rw [val_main_v30_apply, v24_apply, v29_apply, Ideal.hostDivf_def, Cert.Gram.G_ix2]
  rfl

/-- Every weakly fair execution of the reference ends with its result buffer at the specification's function of
    the three argument buffers, the arguments unchanged. -/
theorem run_G (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread _ _).loc Cert.ReferenceIdeal.main_v30) = Cert.Gram.G (m ((c.tc : Thread _ _).loc Cert.ReferenceIdeal.main_arg0)) (m ((c.tc : Thread _ _).loc Cert.ReferenceIdeal.main_arg1)) (m ((c.tc : Thread _ _).loc Cert.ReferenceIdeal.main_arg2))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)
      ∧ r.2.mem ((c.tc : Thread _ _).loc Cert.ReferenceIdeal.main_arg2) = m ((c.tc : Thread _ _).loc Cert.ReferenceIdeal.main_arg2) :=
  (θ_run (Cert.ReferenceIdeal.defs (F := Ideal)) _ _).mono
    (fun _ h c => ⟨(h c).1.trans ((val_main_v30_eq m c).trans (val_eq_G _ _ _)), (h c).2⟩)
    (Cert.ReferenceIdeal.Value.run (F := Ideal) m ρ)

end Cert.Gram.Ref

end
-- ==== Proof.lean ====
/-
  The certificate's five claims.

  The program computes, for support matrices x, y and a square factor l, the Gaussian-type kernel of the distances
  between the rows of YL = y · l and XL = x · l, each row normalised by its sum: entry (p, q) is
  k(p, q) / (Σ_q' k(p, q') + ε) with k(p, q) = exp(−√(max(|YL_p|² + |XL_q|² − 2⟨YL_p, XL_q⟩, 0)) / 256) · c.
  The kernel does this in four regions (the two products blockwise; the row sums accumulated over sixteen column blocks
  in a buffer it keeps between grid points; the normalised entries blockwise, the kernel entries recomputed); the
  reference in one pass. On the extended reals the two agree entry by entry: every operation is the same one applied to
  the same operands in the same order, except that the row sum is taken as sixteen partial sums of 512 terms added in
  turn to a cleared accumulator, where the reference sums 8192 terms at once - one sum in a commutative monoid, so no
  finiteness of the inputs is needed and the precondition is never opened.

  Frames: each program terminates without a fault and leaves its arguments as launched - for the kernel, at either
  float instance, because every region is entered from, and returns, the core's unscoped buffers at named contents and
  no region's output array is an argument; for the reference, by its run. The idealization rewrote nothing.
-/
import proofs.«104530_j2594160247416_1_alg».proof.Defs
import proofs.«104530_j2594160247416_1_alg».proof.Proof.Gen.Kernel
import proofs.«104530_j2594160247416_1_alg».proof.Proof.Gen.KernelIdeal
import proofs.«104530_j2594160247416_1_alg».proof.Proof.Gen.ReferenceIdeal
import proofs.«104530_j2594160247416_1_alg».proof.Proof.Gen.Pre_finite_inputs
import proofs.«104530_j2594160247416_1_alg».proof.Proof.Gen.ReferenceIdeal.Run
import proofs.«104530_j2594160247416_1_alg».proof.Proof.Gen.ReferenceIdeal.Read
import proofs.«104530_j2594160247416_1_alg».proof.Proof.KRun
import proofs.«104530_j2594160247416_1_alg».proof.Proof.KIVal
import proofs.«104530_j2594160247416_1_alg».proof.Proof.RefG

noncomputable section

namespace Cert.Proof

open Idealize.ShloMosaic Idealize.ShloMosaic.TcCoe Idealize.SL.Sem

/-- The word-level kernel runs to the end and leaves its arguments as launched. -/
theorem frame_k : Cert.frame_Kernel := fun m ρ _ => Cert.Kernel.Fr.frame m ρ

/-- So does the idealized kernel. -/
theorem frame_ki : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with their result at the same function of arguments that agree. -/
theorem algebraic : Cert.algebraic_KernelIdeal_ReferenceIdeal := by
  intro m ρ m' ρ' _ hagree
  refine ⟨_, Cert.KernelIdeal.Val.run_G m ρ, ?_⟩
  refine (θ_run Cert.ReferenceIdeal.defs _ _).mono (fun _ h c => ⟨(h c).1.trans ?_, (h c).2⟩) (Cert.Gram.Ref.run_G m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
